-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4 : Shape := ⟨2, ![1024, 4]⟩
abbrev S128x128x2x4 : Shape := ⟨4, ![128, 128, 2, 4]⟩
abbrev S128x128x2 : Shape := ⟨3, ![128, 128, 2]⟩
abbrev S128x128x80 : Shape := ⟨3, ![128, 128, 80]⟩
abbrev S32768 : Shape := ⟨1, ![32768]⟩
abbrev S_ : Shape := ⟨0, ![]⟩

class Facts : Prop where
  bcast_S_S1024x4 : S_.BroadcastsInDim S1024x4 (![] : Fin 0 → Fin S1024x4.rank)
  reducesTo_S1024x4_S_d0_1 : S1024x4.ReducesTo [0, 1] S_
  h_S_ : 0 < S_.numel
  bcast_S_S128x128x2x4 : S_.BroadcastsInDim S128x128x2x4 (![] : Fin 0 → Fin S128x128x2x4.rank)
  reducesTo_S128x128x2x4_S_d0_1_2_3 : S128x128x2x4.ReducesTo [0, 1, 2, 3] S_
  bcast_S_S128x128x2 : S_.BroadcastsInDim S128x128x2 (![] : Fin 0 → Fin S128x128x2.rank)
  reducesTo_S128x128x2_S_d0_1_2 : S128x128x2.ReducesTo [0, 1, 2] S_
  bcast_S_S128x128x80 : S_.BroadcastsInDim S128x128x80 (![] : Fin 0 → Fin S128x128x80.rank)
  reducesTo_S128x128x80_S_d0_1_2 : S128x128x80.ReducesTo [0, 1, 2] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg4 : FVec F S128x128x80 .f32) (main_arg6 : FVec F S32768 .f32) (main_v13 : IVec S_ 1) (main_v16 : IVec S128x128x80 1) : IVec S_ 1 :=
  let main_c_5 : IVec S_ 1 := constantI S_ 1 1#1
  let main_v17 : IVec S_ 1 := (fun x v => Host.reduce IntOp.andi x v reducesTo_S128x128x80_S_d0_1_2 h_S_) main_v16 main_c_5
  let main_v18 : IVec S_ 1 := andi main_v13 main_v17
  let main_v19 : FVec F S128x128x80 .f32 := Host.absf main_arg4
  let main_cst_6 : FVec F S_ .f32 := constant S_ .f32 0x7F800000#32
  let main_v20 : FVec F S128x128x80 .f32 := broadcastInDim S128x128x80 ![] bcast_S_S128x128x80 main_cst_6
  let main_v21 : IVec S128x128x80 1 := cmpf .olt main_v19 main_v20
  let main_c_7 : IVec S_ 1 := constantI S_ 1 1#1
  let main_v22 : IVec S_ 1 := (fun x v => Host.reduce IntOp.andi x v reducesTo_S128x128x80_S_d0_1_2 h_S_) main_v21 main_c_7
  let main_v23 : IVec S_ 1 := andi main_v18 main_v22
  let main_v24 : FVec F S32768 .f32 := Host.absf main_arg6
  let main_cst_8 : FVec F S_ .f32 := constant S_ .f32 0x7F800000#32
  let main_v25 : FVec F S32768 .f32 := broadcastInDim S32768 ![] bcast_S_S32768 main_cst_8
  let main_v26 : IVec S32768 1 := cmpf .olt main_v24 main_v25
  let main_c_9 : IVec S_ 1 := constantI S_ 1 1#1
  let main_v27 : IVec S_ 1 := (fun x v => Host.reduce IntOp.andi x v reducesTo_S32768_S_d0 h_S_) main_v26 main_c_9
  let main_v28 : IVec S_ 1 := andi main_v23 main_v27
  main_v28

def fn {F : FTy → Type} [FloatOps F] (main_arg0 : FVec F S1024x4 .f32) (main_arg1 : FVec F S128x128x2x4 .f32) (main_arg2 : FVec F S128x128x2 .f32) (main_arg3 : FVec F S128x128x80 .f32) (main_arg4 : FVec F S128x128x80 .f32) (main_arg5 : IVec S32768 32) (main_arg6 : FVec F S32768 .f32) : IVec S_ 1 :=
  let main_v0 : FVec F S1024x4 .f32 := Host.absf main_arg0
  let main_cst : FVec F S_ .f32 := constant S_ .f32 0x7F800000#32
  let main_v1 : FVec F S1024x4 .f32 := broadcastInDim S1024x4 ![] bcast_S_S1024x4 main_cst
  let main_v2 : IVec S1024x4 1 := cmpf .olt main_v0 main_v1
  let main_c : IVec S_ 1 := constantI S_ 1 1#1
  let main_v3 : IVec S_ 1 := (fun x v => Host.reduce IntOp.andi x v reducesTo_S1024x4_S_d0_1 h_S_) main_v2 main_c
  let main_v4 : FVec F S128x128x2x4 .f32 := Host.absf main_arg1
  let main_cst_0 : FVec F S_ .f32 := constant S_ .f32 0x7F800000#32
  let main_v5 : FVec F S128x128x2x4 .f32 := broadcastInDim S128x128x2x4 ![] bcast_S_S128x128x2x4 main_cst_0
  let main_v6 : IVec S128x128x2x4 1 := cmpf .olt main_v4 main_v5
  let main_c_1 : IVec S_ 1 := constantI S_ 1 1#1
  let main_v7 : IVec S_ 1 := (fun x v => Host.reduce IntOp.andi x v reducesTo_S128x128x2x4_S_d0_1_2_3 h_S_) main_v6 main_c_1
  let main_v8 : IVec S_ 1 := andi main_v3 main_v7
  let main_v9 : FVec F S128x128x2 .f32 := Host.absf main_arg2
  let main_cst_2 : FVec F S_ .f32 := constant S_ .f32 0x7F800000#32
  let main_v10 : FVec F S128x128x2 .f32 := broadcastInDim S128x128x2 ![] bcast_S_S128x128x2 main_cst_2
  let main_v11 : IVec S128x128x2 1 := cmpf .olt main_v9 main_v10
  let main_c_3 : IVec S_ 1 := constantI S_ 1 1#1
  let main_v12 : IVec S_ 1 := (fun x v => Host.reduce IntOp.andi x v reducesTo_S128x128x2_S_d0_1_2 h_S_) main_v11 main_c_3
  let main_v13 : IVec S_ 1 := andi main_v8 main_v12
  let main_v14 : FVec F S128x128x80 .f32 := Host.absf main_arg3
  let main_cst_4 : FVec F S_ .f32 := constant S_ .f32 0x7F800000#32
  let main_v15 : FVec F S128x128x80 .f32 := broadcastInDim S128x128x80 ![] bcast_S_S128x128x80 main_cst_4
  let main_v16 : IVec S128x128x80 1 := cmpf .olt main_v14 main_v15
  fn_part1 (F := F) main_arg4 main_arg6 main_v13 main_v16
-- ==== Kernel.lean ====
abbrev S1024x4 : Shape := ⟨2, ![1024, 4]⟩
abbrev S128x128x2x4 : Shape := ⟨4, ![128, 128, 2, 4]⟩
abbrev S128x128x2 : Shape := ⟨3, ![128, 128, 2]⟩
abbrev S128x128x80 : Shape := ⟨3, ![128, 128, 80]⟩
abbrev S32768 : Shape := ⟨1, ![32768]⟩
abbrev S32768x4 : Shape := ⟨2, ![32768, 4]⟩
abbrev S_ : Shape := ⟨0, ![]⟩
abbrev S32768x1 : Shape := ⟨2, ![32768, 1]⟩
abbrev S4x32768 : Shape := ⟨2, ![4, 32768]⟩
abbrev S1x32768 : Shape := ⟨2, ![1, 32768]⟩
abbrev S256x128 : Shape := ⟨2, ![256, 128]⟩
abbrev S10240x128 : Shape := ⟨2, ![10240, 128]⟩
abbrev S1x1 : Shape := ⟨2, ![1, 1]⟩
abbrev S2560x128 : Shape := ⟨2, ![2560, 128]⟩
abbrev S256 : Shape := ⟨1, ![256]⟩
abbrev S256x1 : Shape := ⟨2, ![256, 1]⟩
abbrev S1 : Shape := ⟨1, ![1]⟩
abbrev S2560 : Shape := ⟨1, ![2560]⟩
abbrev S2560x1 : Shape := ⟨2, ![2560, 1]⟩

abbrev nBuf : Space → Nat
  | .hbm => 59
  | .vmem => 17
  | .smem => 0
  | _ => 0

abbrev bufTy : (tb : Table) → Fin (tcTables nBuf tb) → BufTy
  | .hbm, ⟨0, _⟩ => ⟨S1024x4, .f32⟩
  | .hbm, ⟨1, _⟩ => ⟨S128x128x2x4, .f32⟩
  | .hbm, ⟨2, _⟩ => ⟨S128x128x2, .f32⟩
  | .hbm, ⟨3, _⟩ => ⟨S128x128x80, .f32⟩
  | .hbm, ⟨4, _⟩ => ⟨S128x128x80, .f32⟩
  | .hbm, ⟨5, _⟩ => ⟨S32768, .i32⟩
  | .hbm, ⟨6, _⟩ => ⟨S32768, .f32⟩
  | .hbm, ⟨7, _⟩ => ⟨S32768x4, .f32⟩
  | .hbm, ⟨8, _⟩ => ⟨S32768, .f32⟩
  | .hbm, ⟨9, _⟩ => ⟨S_, .i32⟩
  | .hbm, ⟨10, _⟩ => ⟨S32768, .i32⟩
  | .hbm, ⟨11, _⟩ => ⟨S32768, .i1⟩
  | .hbm, ⟨12, _⟩ => ⟨S_, .i32⟩
  | .hbm, ⟨13, _⟩ => ⟨S_, .i32⟩
  | .hbm, ⟨14, _⟩ => ⟨S32768, .i32⟩
  | .hbm, ⟨15, _⟩ => ⟨S32768, .i32⟩
  | .hbm, ⟨16, _⟩ => ⟨S_, .i32⟩
  | .hbm, ⟨17, _⟩ => ⟨S32768, .i32⟩
  | .hbm, ⟨18, _⟩ => ⟨S32768, .i1⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S32768, .i32⟩
  | .hbm, ⟨23, _⟩ => ⟨S32768x1, .i32⟩
  | .hbm, ⟨24, _⟩ => ⟨S32768x4, .f32⟩
  | .hbm, ⟨25, _⟩ => ⟨S4x32768, .f32⟩
  | .hbm, ⟨26, _⟩ => ⟨S1x32768, .f32⟩
  | .hbm, ⟨27, _⟩ => ⟨S32768, .f32⟩
  | .hbm, ⟨28, _⟩ => ⟨S256x128, .f32⟩
  | .hbm, ⟨29, _⟩ => ⟨S1x32768, .f32⟩
  | .hbm, ⟨30, _⟩ => ⟨S32768, .f32⟩
  | .hbm, ⟨31, _⟩ => ⟨S256x128, .f32⟩
  | .hbm, ⟨32, _⟩ => ⟨S1x32768, .f32⟩
  | .hbm, ⟨33, _⟩ => ⟨S32768, .f32⟩
  | .hbm, ⟨34, _⟩ => ⟨S256x128, .f32⟩
  | .hbm, ⟨35, _⟩ => ⟨S1x32768, .f32⟩
  | .hbm, ⟨36, _⟩ => ⟨S32768, .f32⟩
  | .hbm, ⟨37, _⟩ => ⟨S256x128, .f32⟩
  | .hbm, ⟨38, _⟩ => ⟨S4x32768, .f32⟩
  | .hbm, ⟨39, _⟩ => ⟨S1x32768, .f32⟩
  | .hbm, ⟨40, _⟩ => ⟨S32768, .f32⟩
  | .hbm, ⟨41, _⟩ => ⟨S256x128, .f32⟩
  | .hbm, ⟨42, _⟩ => ⟨S1x32768, .f32⟩
  | .hbm, ⟨43, _⟩ => ⟨S32768, .f32⟩
  | .hbm, ⟨44, _⟩ => ⟨S256x128, .f32⟩
  | .hbm, ⟨45, _⟩ => ⟨S1x32768, .f32⟩
  | .hbm, ⟨46, _⟩ => ⟨S32768, .f32⟩
  | .hbm, ⟨47, _⟩ => ⟨S256x128, .f32⟩
  | .hbm, ⟨48, _⟩ => ⟨S1x32768, .f32⟩
  | .hbm, ⟨49, _⟩ => ⟨S32768, .f32⟩
  | .hbm, ⟨50, _⟩ => ⟨S256x128, .f32⟩
  | .hbm, ⟨51, _⟩ => ⟨S256x128, .f32⟩
  | .hbm, ⟨52, _⟩ => ⟨S256x128, .f32⟩
  | .hbm, ⟨53, _⟩ => ⟨S32768, .f32⟩
  | .hbm, ⟨54, _⟩ => ⟨S256x128, .f32⟩
  | .hbm, ⟨55, _⟩ => ⟨S10240x128, .f32⟩
  | .hbm, ⟨56, _⟩ => ⟨S10240x128, .f32⟩
  | .hbm, ⟨57, _⟩ => ⟨S1x1, .f32⟩
  | .hbm, ⟨58, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S2560x128, .f32⟩
  | .local _ .vmem, ⟨12, _⟩ => ⟨S2560x128, .f32⟩
  | .local _ .vmem, ⟨13, _⟩ => ⟨S2560x128, .f32⟩
  | .local _ .vmem, ⟨14, _⟩ => ⟨S2560x128, .f32⟩
  | .local _ .vmem, ⟨15, _⟩ => ⟨S1x1, .f32⟩
  | .local _ .vmem, ⟨16, _⟩ => ⟨S1x1, .f32⟩
  | _, _ => ⟨S1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14
abbrev cc0_sem13_0 : DmaSem sig := 15

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v18 : BitVec 1 := Scalar.cmpi .eq arg0 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2560x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2560x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  shapeCasts_S128x128x2x4_S32768x4 : S128x128x2x4.ShapeCasts S32768x4
  shapeCasts_S128x128x2_S32768 : S128x128x2.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  transposes_S32768x4_S4x32768_1_0 : S32768x4.Transposes [1, 0] S4x32768
  slices_S4x32768_S1x32768_0_0 : S4x32768.Slices ![0, 0] S1x32768
  shapeCasts_S1x32768_S32768 : S1x32768.ShapeCasts S32768
  shapeCasts_S32768_S256x128 : S32768.ShapeCasts S256x128
  slices_S4x32768_S1x32768_1_0 : S4x32768.Slices ![1, 0] S1x32768
  slices_S4x32768_S1x32768_2_0 : S4x32768.Slices ![2, 0] S1x32768
  slices_S4x32768_S1x32768_3_0 : S4x32768.Slices ![3, 0] S1x32768
  shapeCasts_S128x128x80_S10240x128 : S128x128x80.ShapeCasts S10240x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S256x128_S256 : S256x128.Reduces [1] S256
  shapeCasts_S256_S256x1 : S256.ShapeCasts S256x1
  reduces_S256x1_S1 : S256x1.Reduces [0] S1
  shapeCasts_S1_S1x1 : S1.ShapeCasts S1x1
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  reduces_S2560x128_S2560 : S2560x128.Reduces [1] S2560
  shapeCasts_S2560_S2560x1 : S2560.ShapeCasts S2560x1
  reduces_S2560x1_S1 : S2560x1.Reduces [0] S1
  shapeCasts_S1x1_S_ : S1x1.ShapeCasts S_
  gather_S1024x4_S32768x1_S32768x4_1_0_n_n_0_1_14_wf : GatherDims.WF S1024x4 S32768x1 S32768x4 [1] [0] [] [0] [] 1 ![1, 4]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S256x128.size a
  hwx0_0 : ∀ i : grid0.Coords, EltTy.bits .f32 = 32 ∨ (Rect.block (s := S256x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2560x128.size a ≤ S10240x128.size a
  hwx0_11 : ∀ i : grid0.Coords, EltTy.bits .f32 = 32 ∨ (Rect.block (s := S10240x128) S2560x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2560x128.size a ≤ S10240x128.size a
  hwx0_12 : ∀ i : grid0.Coords, EltTy.bits .f32 = 32 ∨ (Rect.block (s := S10240x128) S2560x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)

variable [Facts₀]

def gather_S1024x4_S32768x1_S32768x4_1_0_n_n_0_1_14 : GatherDims S1024x4 S32768x1 S32768x4 where
  offsetDims := [1]
  collapsedSliceDims := [0]
  operandBatchingDims := []
  startIndicesBatchingDims := []
  startIndexMap := [0]
  indexVectorDim := 1
  sliceSizes := ![1, 4]
  wf := gather_S1024x4_S32768x1_S32768x4_1_0_n_n_0_1_14_wf

abbrev win0_0 : Pipeline.Window sig grid0 :=
  Pipeline.Window.ofSpec (Memref.whole main_v15) S256x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v42) S2560x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v43) S2560x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v44) S1x1.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== ReferenceIdeal.lean ====
abbrev S1024x4 : Shape := ⟨2, ![1024, 4]⟩
abbrev S128x128x2x4 : Shape := ⟨4, ![128, 128, 2, 4]⟩
abbrev S128x128x2 : Shape := ⟨3, ![128, 128, 2]⟩
abbrev S128x128x80 : Shape := ⟨3, ![128, 128, 80]⟩
abbrev S32768 : Shape := ⟨1, ![32768]⟩
abbrev S32768x4 : Shape := ⟨2, ![32768, 4]⟩
abbrev S_ : Shape := ⟨0, ![]⟩
abbrev S32768x1 : Shape := ⟨2, ![32768, 1]⟩
abbrev S32768x2 : Shape := ⟨2, ![32768, 2]⟩

abbrev nBuf : Space → Nat
  | .hbm => 90
  | .vmem => 0
  | .smem => 0
  | _ => 0

abbrev bufTy : (tb : Table) → Fin (tcTables nBuf tb) → BufTy
  | .hbm, ⟨0, _⟩ => ⟨S1024x4, .f32⟩
  | .hbm, ⟨1, _⟩ => ⟨S128x128x2x4, .f32⟩
  | .hbm, ⟨2, _⟩ => ⟨S128x128x2, .f32⟩
  | .hbm, ⟨3, _⟩ => ⟨S128x128x80, .f32⟩
  | .hbm, ⟨4, _⟩ => ⟨S128x128x80, .f32⟩
  | .hbm, ⟨5, _⟩ => ⟨S32768, .i32⟩
  | .hbm, ⟨6, _⟩ => ⟨S32768, .f32⟩
  | .hbm, ⟨7, _⟩ => ⟨S32768x4, .f32⟩
  | .hbm, ⟨8, _⟩ => ⟨S32768, .f32⟩
  | .hbm, ⟨9, _⟩ => ⟨S_, .i32⟩
  | .hbm, ⟨10, _⟩ => ⟨S32768, .i32⟩
  | .hbm, ⟨11, _⟩ => ⟨S32768, .i1⟩
  | .hbm, ⟨12, _⟩ => ⟨S_, .i32⟩
  | .hbm, ⟨13, _⟩ => ⟨S_, .i32⟩
  | .hbm, ⟨14, _⟩ => ⟨S32768, .i32⟩
  | .hbm, ⟨15, _⟩ => ⟨S32768, .i32⟩
  | .hbm, ⟨16, _⟩ => ⟨S_, .i32⟩
  | .hbm, ⟨17, _⟩ => ⟨S32768, .i32⟩
  | .hbm, ⟨18, _⟩ => ⟨S32768, .i1⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S32768, .i32⟩
  | .hbm, ⟨23, _⟩ => ⟨S32768x1, .i32⟩
  | .hbm, ⟨24, _⟩ => ⟨S32768x4, .f32⟩
  | .hbm, ⟨25, _⟩ => ⟨S32768x2, .f32⟩
  | .hbm, ⟨26, _⟩ => ⟨S32768x2, .f32⟩
  | .hbm, ⟨27, _⟩ => ⟨S32768x2, .f32⟩
  | .hbm, ⟨28, _⟩ => ⟨S32768x2, .f32⟩
  | .hbm, ⟨29, _⟩ => ⟨S_, .f32⟩
  | .hbm, ⟨30, _⟩ => ⟨S32768, .f32⟩
  | .hbm, ⟨31, _⟩ => ⟨S32768x2, .f32⟩
  | .hbm, ⟨32, _⟩ => ⟨S32768x2, .f32⟩
  | .hbm, ⟨33, _⟩ => ⟨S32768x2, .i1⟩
  | .hbm, ⟨34, _⟩ => ⟨S_, .f32⟩
  | .hbm, ⟨35, _⟩ => ⟨S32768x2, .f32⟩
  | .hbm, ⟨36, _⟩ => ⟨S32768x2, .f32⟩
  | .hbm, ⟨37, _⟩ => ⟨S_, .f32⟩
  | .hbm, ⟨38, _⟩ => ⟨S32768x2, .f32⟩
  | .hbm, ⟨39, _⟩ => ⟨S32768x2, .i1⟩
  | .hbm, ⟨40, _⟩ => ⟨S_, .f32⟩
  | .hbm, ⟨41, _⟩ => ⟨S32768x2, .f32⟩
  | .hbm, ⟨42, _⟩ => ⟨S32768x2, .f32⟩
  | .hbm, ⟨43, _⟩ => ⟨S_, .f32⟩
  | .hbm, ⟨44, _⟩ => ⟨S32768x2, .f32⟩
  | .hbm, ⟨45, _⟩ => ⟨S32768x2, .i1⟩
  | .hbm, ⟨46, _⟩ => ⟨S_, .f32⟩
  | .hbm, ⟨47, _⟩ => ⟨S32768x2, .f32⟩
  | .hbm, ⟨48, _⟩ => ⟨S32768x2, .f32⟩
  | .hbm, ⟨49, _⟩ => ⟨S32768x2, .f32⟩
  | .hbm, ⟨50, _⟩ => ⟨S32768x2, .f32⟩
  | .hbm, ⟨51, _⟩ => ⟨S32768x2, .i1⟩
  | .hbm, ⟨52, _⟩ => ⟨S_, .f32⟩
  | .hbm, ⟨53, _⟩ => ⟨S32768x2, .f32⟩
  | .hbm, ⟨54, _⟩ => ⟨S32768x2, .f32⟩
  | .hbm, ⟨55, _⟩ => ⟨S_, .f32⟩
  | .hbm, ⟨56, _⟩ => ⟨S32768x2, .f32⟩
  | .hbm, ⟨57, _⟩ => ⟨S32768x2, .i1⟩
  | .hbm, ⟨58, _⟩ => ⟨S_, .f32⟩
  | .hbm, ⟨59, _⟩ => ⟨S32768x2, .f32⟩
  | .hbm, ⟨60, _⟩ => ⟨S32768x2, .f32⟩
  | .hbm, ⟨61, _⟩ => ⟨S_, .f32⟩
  | .hbm, ⟨62, _⟩ => ⟨S32768x2, .f32⟩
  | .hbm, ⟨63, _⟩ => ⟨S32768x2, .i1⟩
  | .hbm, ⟨64, _⟩ => ⟨S_, .f32⟩
  | .hbm, ⟨65, _⟩ => ⟨S32768x2, .f32⟩
  | .hbm, ⟨66, _⟩ => ⟨S32768x2, .f32⟩
  | .hbm, ⟨67, _⟩ => ⟨S32768x2, .f32⟩
  | .hbm, ⟨68, _⟩ => ⟨S32768x2, .f32⟩
  | .hbm, ⟨69, _⟩ => ⟨S_, .f32⟩
  | .hbm, ⟨70, _⟩ => ⟨S32768, .f32⟩
  | .hbm, ⟨71, _⟩ => ⟨S32768, .f32⟩
  | .hbm, ⟨72, _⟩ => ⟨S_, .f32⟩
  | .hbm, ⟨73, _⟩ => ⟨S32768, .f32⟩
  | .hbm, ⟨74, _⟩ => ⟨S32768, .f32⟩
  | .hbm, ⟨75, _⟩ => ⟨S32768, .f32⟩
  | .hbm, ⟨76, _⟩ => ⟨S32768, .f32⟩
  | .hbm, ⟨77, _⟩ => ⟨S32768, .f32⟩
  | .hbm, ⟨78, _⟩ => ⟨S32768, .f32⟩
  | .hbm, ⟨79, _⟩ => ⟨S_, .f32⟩
  | .hbm, ⟨80, _⟩ => ⟨S32768, .f32⟩
  | .hbm, ⟨81, _⟩ => ⟨S32768, .f32⟩
  | .hbm, ⟨82, _⟩ => ⟨S32768, .f32⟩
  | .hbm, ⟨83, _⟩ => ⟨S_, .f32⟩
  | .hbm, ⟨84, _⟩ => ⟨S_, .f32⟩
  | .hbm, ⟨85, _⟩ => ⟨S128x128x80, .f32⟩
  | .hbm, ⟨86, _⟩ => ⟨S128x128x80, .f32⟩
  | .hbm, ⟨87, _⟩ => ⟨S_, .f32⟩
  | .hbm, ⟨88, _⟩ => ⟨S_, .f32⟩
  | .hbm, ⟨89, _⟩ => ⟨S_, .f32⟩
  | _, _ => ⟨S1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_v0 : Ref sig .tc := ⟨.hbm, 33, rfl⟩
abbrev main_call1_cst : Ref sig .tc := ⟨.hbm, 34, rfl⟩
abbrev main_call1_call0_v0 : Ref sig .tc := ⟨.hbm, 35, rfl⟩
abbrev main_call1_v1 : Ref sig .tc := ⟨.hbm, 36, rfl⟩
abbrev main_call1_cst_0 : Ref sig .tc := ⟨.hbm, 37, rfl⟩
abbrev main_call1_v2 : Ref sig .tc := ⟨.hbm, 38, rfl⟩
abbrev main_call1_v3 : Ref sig .tc := ⟨.hbm, 39, rfl⟩
abbrev main_call1_cst_1 : Ref sig .tc := ⟨.hbm, 40, rfl⟩
abbrev main_call1_call1_v0 : Ref sig .tc := ⟨.hbm, 41, rfl⟩
abbrev main_call1_v4 : Ref sig .tc := ⟨.hbm, 42, rfl⟩
abbrev main_call1_cst_2 : Ref sig .tc := ⟨.hbm, 43, rfl⟩
abbrev main_call1_v5 : Ref sig .tc := ⟨.hbm, 44, rfl⟩
abbrev main_call1_v6 : Ref sig .tc := ⟨.hbm, 45, rfl⟩
abbrev main_call1_cst_3 : Ref sig .tc := ⟨.hbm, 46, rfl⟩
abbrev main_call1_call2_v0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call2_v0 : Ref sig .tc := ⟨.hbm, 51, rfl⟩
abbrev main_call2_cst : Ref sig .tc := ⟨.hbm, 52, rfl⟩
abbrev main_call2_call0_v0 : Ref sig .tc := ⟨.hbm, 53, rfl⟩
abbrev main_call2_v1 : Ref sig .tc := ⟨.hbm, 54, rfl⟩
abbrev main_call2_cst_0 : Ref sig .tc := ⟨.hbm, 55, rfl⟩
abbrev main_call2_v2 : Ref sig .tc := ⟨.hbm, 56, rfl⟩
abbrev main_call2_v3 : Ref sig .tc := ⟨.hbm, 57, rfl⟩
abbrev main_call2_cst_1 : Ref sig .tc := ⟨.hbm, 58, rfl⟩
abbrev main_call2_call1_v0 : Ref sig .tc := ⟨.hbm, 59, rfl⟩
abbrev main_call2_v4 : Ref sig .tc := ⟨.hbm, 60, rfl⟩
abbrev main_call2_cst_2 : Ref sig .tc := ⟨.hbm, 61, rfl⟩
abbrev main_call2_v5 : Ref sig .tc := ⟨.hbm, 62, rfl⟩
abbrev main_call2_v6 : Ref sig .tc := ⟨.hbm, 63, rfl⟩
abbrev main_call2_cst_3 : Ref sig .tc := ⟨.hbm, 64, rfl⟩
abbrev main_call2_call2_v0 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst_3 : Ref sig .tc := ⟨.hbm, 69, rfl⟩
abbrev main_v25 : Ref sig .tc := ⟨.hbm, 70, rfl⟩
abbrev main_v26 : Ref sig .tc := ⟨.hbm, 71, rfl⟩
abbrev main_cst_4 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_5 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_6 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_7 : Ref sig .tc := ⟨.hbm, 87, rfl⟩
abbrev main_v39 : Ref sig .tc := ⟨.hbm, 88, rfl⟩
abbrev main_v40 : Ref sig .tc := ⟨.hbm, 89, rfl⟩

abbrev nD : Nat := 1
abbrev τ : Topo := Topo.v7x

variable {F : FTy → Type} [FloatOps F]

class Facts₀ : Prop where
  shapeCasts_S128x128x2x4_S32768x4 : S128x128x2x4.ShapeCasts S32768x4
  shapeCasts_S128x128x2_S32768 : S128x128x2.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S32768x4_S32768x2_0_0 : S32768x4.Slices ![0, 0] S32768x2
  reducesTo_S32768x2_S32768_d1 : S32768x2.ReducesTo [1] S32768
  h_S_ : 0 < S_.numel
  slices_S32768x4_S32768x2_0_2 : S32768x4.Slices ![0, 2] S32768x2
  bcast_S_S32768x2 : S_.BroadcastsInDim S32768x2 (![] : Fin 0 → Fin S32768x2.rank)
  reducesTo_S32768_S_d0 : S32768.ReducesTo [0] S_
  reducesTo_S128x128x80_S_d0_1_2 : S128x128x80.ReducesTo [0, 1, 2] S_
  gather_S1024x4_S32768x1_S32768x4_1_0_n_n_0_1_14_wf : GatherDims.WF S1024x4 S32768x1 S32768x4 [1] [0] [] [0] [] 1 ![1, 4]

variable [Facts₀]

def gather_S1024x4_S32768x1_S32768x4_1_0_n_n_0_1_14 : GatherDims S1024x4 S32768x1 S32768x4 where
  offsetDims := [1]
  collapsedSliceDims := [0]
  operandBatchingDims := []
  startIndicesBatchingDims := []
  startIndexMap := [0]
  indexVectorDim := 1
  sliceSizes := ![1, 4]
  wf := gather_S1024x4_S32768x1_S32768x4_1_0_n_n_0_1_14_wf

class Facts : Prop extends Facts₀ where

variable [Facts]
-- ==== Proof.RefRun.lean ====
/-
  The reference program's run, written out.

  The reference computes the loss on the host side of the machine: no kernel, only tensor operations, each reading
  whole buffers and writing one. Four of its steps are calls of small functions the tracer outlined (the choice
  "where matched, the assignment, else zero"; twice the replacement of NaN and of the infinities by finite numbers,
  itself three choices "where the flag is set, a scalar, else the value"; the final choice between the matched and
  the unmatched loss). A call executes the callee's body on the caller's buffers, so the program is ONE straight line
  of 83 operations: the 47 of the main function itself and, at each of its four calls, the callee's operations over
  that call's own buffers (3, 16, 16 and 1 of them).

  This file lists that line (`ops`), proves the program equal to it (`main_eq`: unfold the four functions at
  their calls, re-associate the sequencing), and reads off the library's theorem for a straight line (`run_seq`):
  every fair execution terminates, and each buffer of the TensorCore then holds what the operations, applied in
  order to the launch contents, leave there (`after ops`). What that content IS, as a formula of the seven
  arguments, is the next file's business.
-/
import proofs.«157804_j69140383531511_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem
  Idealize.ShloMosaic.StableHlo

variable {F : FTy → Type} [FloatOps F]

/-- The reference's 83 operations, in order, the calls unfolded: an operation of the main function is written over
    the main function's buffers, an operation of a called function over the typed references of that call's record
    (`main_call0` … `main_call3`; a nested call's record is a field of its caller's). -/
abbrev ops : List (HloOp τ sig (Elt F)) :=
  [
    -- the predicted boxes and their confidences, one row per box
    reshape main_arg1 main_v0 rfl shapeCasts_S128x128x2x4_S32768x4,
    reshape main_arg2 main_v1 rfl shapeCasts_S128x128x2_S32768,
    -- matched: the assignment is at least zero
    nullary main_c (constantI S_ 32 0#32),
    unary main_c main_v2 (broadcastInDim S32768 ![] bcast_S_S32768),
    binary main_arg5 main_v2 main_v3 (cmpi .sge),
    -- the row looked up: the assignment where matched, else 0 (a scalar zero converted, broadcast, selected)
    nullary main_c_0 (constantI S_ 32 0#32),
    TRef.unary (.of main_c_0) main_call0.v0 id,
    TRef.unary main_call0.v0 main_call0.v1 (broadcastInDim S32768 ![] bcast_S_S32768),
    TRef.ternary (.of main_v3) (.of main_arg5) main_call0.v1 main_call0.v2 select,
    -- a negative row index moved up by the table's length
    nullary main_c_1 (constantI S_ 32 0#32),
    unary main_c_1 main_v5 (broadcastInDim S32768 ![] bcast_S_S32768),
    binary main_v4 main_v5 main_v6 (cmpi .slt),
    nullary main_c_2 (constantI S_ 32 1024#32),
    unary main_c_2 main_v7 (broadcastInDim S32768 ![] bcast_S_S32768),
    binary main_v4 main_v7 main_v8 addi,
    ternary main_v6 main_v8 main_v4 main_v9 select,
    -- the ground-truth row of each box
    unary main_v9 main_v10 (broadcastInDim S32768x1 ![0] bcast_S32768_S32768x1_0),
    binary main_arg0 main_v10 main_v11 (fun x i => Host.gather gather_S1024x4_S32768x1_S32768x4_1_0_n_n_0_1_14 x i),
    -- the centres: squared differences of columns 0 and 1, summed per box
    unary main_v11 main_v12 (extractStridedSlice S32768x2 ![0, 0] · slices_S32768x4_S32768x2_0_0),
    unary main_v0 main_v13 (extractStridedSlice S32768x2 ![0, 0] · slices_S32768x4_S32768x2_0_0),
    binary main_v12 main_v13 main_v14 subf,
    binary main_v14 main_v14 main_v15 mulf,
    nullary main_cst (constant S_ .f32 0x00000000#32),
    binary main_v15 main_cst main_v16 (fun x v => Host.reduceAdd x v reducesTo_S32768x2_S32768_d1 h_S_),
    -- the sizes: square roots of columns 2 and 3 of the ground truth, made finite
    unary main_v11 main_v17 (extractStridedSlice S32768x2 ![0, 2] · slices_S32768x4_S32768x2_0_2),
    unary main_v17 main_v18 Host.sqrt,
    -- nan_to_num of main_v18: NaN (a value unequal to itself) to 0, +inf to the largest finite f32, -inf to the smallest
    TRef.binary (.of main_v18) (.of main_v18) main_call1.v0 (cmpf .une),
    TRef.nullary main_call1.cst (constant S_ .f32 0x00000000#32),
    TRef.unary main_call1.cst main_call1.call0.v0 (broadcastInDim S32768x2 ![] bcast_S_S32768x2),
    TRef.ternary main_call1.v0 main_call1.call0.v0 (.of main_v18) main_call1.call0.v1 select,
    TRef.nullary main_call1.cst_0 (constant S_ .f32 0x7F800000#32),
    TRef.unary main_call1.cst_0 main_call1.v2 (broadcastInDim S32768x2 ![] bcast_S_S32768x2),
    TRef.binary main_call1.call0.v1 main_call1.v2 main_call1.v3 (cmpf .oeq),
    TRef.nullary main_call1.cst_1 (constant S_ .f32 0x7F7FFFFF#32),
    TRef.unary main_call1.cst_1 main_call1.call1.v0 (broadcastInDim S32768x2 ![] bcast_S_S32768x2),
    TRef.ternary main_call1.v3 main_call1.call1.v0 main_call1.call0.v1 main_call1.call1.v1 select,
    TRef.nullary main_call1.cst_2 (constant S_ .f32 0xFF800000#32),
    TRef.unary main_call1.cst_2 main_call1.v5 (broadcastInDim S32768x2 ![] bcast_S_S32768x2),
    TRef.binary main_call1.call1.v1 main_call1.v5 main_call1.v6 (cmpf .oeq),
    TRef.nullary main_call1.cst_3 (constant S_ .f32 0xFF7FFFFF#32),
    TRef.unary main_call1.cst_3 main_call1.call2.v0 (broadcastInDim S32768x2 ![] bcast_S_S32768x2),
    TRef.ternary main_call1.v6 main_call1.call2.v0 main_call1.call1.v1 main_call1.call2.v1 select,
    -- the same of the prediction
    unary main_v0 main_v20 (extractStridedSlice S32768x2 ![0, 2] · slices_S32768x4_S32768x2_0_2),
    unary main_v20 main_v21 Host.sqrt,
    -- nan_to_num of main_v21: NaN (a value unequal to itself) to 0, +inf to the largest finite f32, -inf to the smallest
    TRef.binary (.of main_v21) (.of main_v21) main_call2.v0 (cmpf .une),
    TRef.nullary main_call2.cst (constant S_ .f32 0x00000000#32),
    TRef.unary main_call2.cst main_call2.call0.v0 (broadcastInDim S32768x2 ![] bcast_S_S32768x2),
    TRef.ternary main_call2.v0 main_call2.call0.v0 (.of main_v21) main_call2.call0.v1 select,
    TRef.nullary main_call2.cst_0 (constant S_ .f32 0x7F800000#32),
    TRef.unary main_call2.cst_0 main_call2.v2 (broadcastInDim S32768x2 ![] bcast_S_S32768x2),
    TRef.binary main_call2.call0.v1 main_call2.v2 main_call2.v3 (cmpf .oeq),
    TRef.nullary main_call2.cst_1 (constant S_ .f32 0x7F7FFFFF#32),
    TRef.unary main_call2.cst_1 main_call2.call1.v0 (broadcastInDim S32768x2 ![] bcast_S_S32768x2),
    TRef.ternary main_call2.v3 main_call2.call1.v0 main_call2.call0.v1 main_call2.call1.v1 select,
    TRef.nullary main_call2.cst_2 (constant S_ .f32 0xFF800000#32),
    TRef.unary main_call2.cst_2 main_call2.v5 (broadcastInDim S32768x2 ![] bcast_S_S32768x2),
    TRef.binary main_call2.call1.v1 main_call2.v5 main_call2.v6 (cmpf .oeq),
    TRef.nullary main_call2.cst_3 (constant S_ .f32 0xFF7FFFFF#32),
    TRef.unary main_call2.cst_3 main_call2.call2.v0 (broadcastInDim S32768x2 ![] bcast_S_S32768x2),
    TRef.ternary main_call2.v6 main_call2.call2.v0 main_call2.call1.v1 main_call2.call2.v1 select,
    -- squared differences of the roots, summed per box
    binary main_v19 main_v22 main_v23 subf,
    binary main_v23 main_v23 main_v24 mulf,
    nullary main_cst_3 (constant S_ .f32 0x00000000#32),
    binary main_v24 main_cst_3 main_v25 (fun x v => Host.reduceAdd x v reducesTo_S32768x2_S32768_d1 h_S_),
    -- matched: 5 * (centres + sizes) + (iou - conf)^2
    binary main_v16 main_v25 main_v26 addf,
    nullary main_cst_4 (constant S_ .f32 0x40A00000#32),
    unary main_cst_4 main_v27 (broadcastInDim S32768 ![] bcast_S_S32768),
    binary main_v27 main_v26 main_v28 mulf,
    binary main_arg6 main_v1 main_v29 subf,
    binary main_v29 main_v29 main_v30 mulf,
    binary main_v28 main_v30 main_v31 addf,
    -- unmatched: 1/2 * conf^2
    binary main_v1 main_v1 main_v32 mulf,
    nullary main_cst_5 (constant S_ .f32 0x3F000000#32),
    unary main_cst_5 main_v33 (broadcastInDim S32768 ![] bcast_S_S32768),
    binary main_v33 main_v32 main_v34 mulf,
    -- the loss of each box, and their sum
    TRef.ternary (.of main_v3) (.of main_v31) (.of main_v34) main_call3.v0 select,
    nullary main_cst_6 (constant S_ .f32 0x00000000#32),
    binary main_v35 main_cst_6 main_v36 (fun x v => Host.reduceAdd x v reducesTo_S32768_S_d0 h_S_),
    -- the class grid: squared differences, summed
    binary main_arg3 main_arg4 main_v37 subf,
    binary main_v37 main_v37 main_v38 mulf,
    nullary main_cst_7 (constant S_ .f32 0x00000000#32),
    binary main_v38 main_cst_7 main_v39 (fun x v => Host.reduceAdd x v reducesTo_S128x128x80_S_d0_1_2 h_S_),
    -- the total
    binary main_v36 main_v39 main_v40 addf ]

-- eighty-three binds re-associated: the rewriting under the chain recurses once per statement, and every
-- re-association revisits the tail of the chain, so the work grows with the square of the length
set_option maxRecDepth 4096 in
set_option maxHeartbeats 4000000 in
/-- The program IS that line: with the four functions' definitions unfolded at their calls, both sides are one chain
    of single steps once sequencing is re-associated (`(a >>= f) >>= g = a >>= fun x => f x >>= g`, and a
    function's closing `pure ⟨⟩` followed by the rest is the rest). -/
theorem main_eq (c : Dev nD) : main (F := F) c = seq ops := by
  simp only [main, fn_where.body, fn_where_0.body, fn_nan_to_num.body, fn_where_1.body, seq, bind_assoc, pure_bind]
  rfl

/-- No buffer of this program is scoped (it has no kernel, hence no staging buffer and no scratch) … -/
theorem scopedRefs_eq : (Finset.univ.filter fun b : Ref sig .tc => b.isScoped) = ∅ := by decide
/-- … and it has no semaphore at all. -/
theorem scopedSems_eq : (Finset.univ.filter fun sm : SemLoc sig => sm.isScoped .tc) = ∅ := by decide

/-- Every operation touches TensorCore buffers only: one fact per operation, by the builder it is made with. -/
theorem ops_sub : (ops : List (HloOp τ sig (Elt F))).Forall fun op => op.bufs ⊆ tcRefs τ sig :=
  ⟨reshape_bufs_sub .., reshape_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., binary_bufs_sub .., nullary_bufs_sub .., binary_bufs_sub ..,
    unary_bufs_sub .., unary_bufs_sub .., binary_bufs_sub .., nullary_bufs_sub .., unary_bufs_sub .., ternary_bufs_sub ..,
    nullary_bufs_sub .., unary_bufs_sub .., binary_bufs_sub .., nullary_bufs_sub .., unary_bufs_sub .., ternary_bufs_sub ..,
    nullary_bufs_sub .., unary_bufs_sub .., binary_bufs_sub .., nullary_bufs_sub .., unary_bufs_sub .., ternary_bufs_sub ..,
    unary_bufs_sub .., unary_bufs_sub .., binary_bufs_sub .., nullary_bufs_sub .., unary_bufs_sub .., ternary_bufs_sub ..,
    nullary_bufs_sub .., unary_bufs_sub .., binary_bufs_sub .., nullary_bufs_sub .., unary_bufs_sub .., ternary_bufs_sub ..,
    nullary_bufs_sub .., unary_bufs_sub .., binary_bufs_sub .., nullary_bufs_sub .., unary_bufs_sub .., ternary_bufs_sub ..,
    binary_bufs_sub .., binary_bufs_sub .., nullary_bufs_sub .., binary_bufs_sub .., binary_bufs_sub .., nullary_bufs_sub ..,
    unary_bufs_sub .., binary_bufs_sub .., binary_bufs_sub .., binary_bufs_sub .., binary_bufs_sub .., binary_bufs_sub ..,
    nullary_bufs_sub .., unary_bufs_sub .., binary_bufs_sub .., ternary_bufs_sub .., nullary_bufs_sub .., binary_bufs_sub ..,
    binary_bufs_sub .., binary_bufs_sub .., nullary_bufs_sub .., binary_bufs_sub .., binary_bufs_sub ..⟩

/-- At the compiled mesh, for any float values, from any memory with zero counters: every weakly fair execution of
    the reference on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.LossSpec.lean ====
/-
  The quantity both programs compute, stated once over the extended reals, with no program in sight.

  There are 32768 predicted boxes (a 128 x 128 grid of cells, two boxes per cell), each a row (cx, cy, w, h) of the
  array `pb`; `mb` holds, for each predicted box, the row of the ground-truth table it is compared with. A box is
  MATCHED when its entry of the integer array is nonnegative. The loss of one box is

      matched:    5 * ( (mb.cx - pb.cx)^2 + (mb.cy - pb.cy)^2
                        + (r(mb.w) - r(pb.w))^2 + (r(mb.h) - r(pb.h))^2 )  +  (iou - conf)^2
      unmatched:  1/2 * conf^2

  where r(x) is the square root of x with an infinite value replaced by the largest, resp. smallest, finite f32
  (on the extended reals there is no NaN, so the replacement of NaN by zero never happens). The total is the sum of the
  box losses over all boxes plus the sum over the 128 x 128 x 80 class grid of the squared differences of the two
  probability arrays.

  The second half of the file states the SAME total the way a tiled evaluation arranges it: the boxes laid out as 256
  rows of 128 lanes and summed row by row, the class grid flattened to 10240 rows of 128 lanes, cut into four tiles
  of 2560 rows, each tile summed row by row, and everything added up left to right starting from zero.
-/
import Idealize.ShloMosaic.PureOps.Ideal
import Idealize.ShloMosaic.Lib.ValueIdx

noncomputable section

open scoped BigOperators

namespace Cert.LossSpec

open Idealize.ShloMosaic Idealize.ShloMosaic.ValueIdx

/-! ## Shapes -/

/-- The ground-truth table: 1024 boxes of four numbers. -/
abbrev STab : Shape := ⟨2, ![1024, 4]⟩
/-- One row (cx, cy, w, h) per predicted box. -/
abbrev SBox : Shape := ⟨2, ![32768, 4]⟩
/-- One number per predicted box. -/
abbrev SVec : Shape := ⟨1, ![32768]⟩
/-- One start index per predicted box, as a column. -/
abbrev SCol : Shape := ⟨2, ![32768, 1]⟩
/-- The class-probability grid. -/
abbrev SGrid : Shape := ⟨3, ![128, 128, 80]⟩
/-- A scalar. -/
abbrev S0 : Shape := ⟨0, ![]⟩

/-! ## Which ground-truth row each box is compared with -/

/-- A box is matched when its entry of the assignment array is at least zero (as a signed integer). -/
def matchedBit (hb : S0.BroadcastsInDim SVec ![]) (a5 : IVec SVec 32) : IVec SVec 1 :=
  cmpi .sge a5 (broadcastInDim SVec ![] hb (constantI S0 32 0#32))

/-- The row of the table looked up for each box: the assignment where the box is matched and 0 where it is not, a
    negative value moved up by the table's length (the wrap-around an array subscript applies; never taken here, the
    value being nonnegative already). -/
def lookupRow (hb : S0.BroadcastsInDim SVec ![]) (a5 : IVec SVec 32) : IVec SVec 32 :=
  let k : IVec SVec 32 := select (matchedBit hb a5) a5 (broadcastInDim SVec ![] hb (id (constantI S0 32 0#32)))
  select (cmpi .slt k (broadcastInDim SVec ![] hb (constantI S0 32 0#32)))
    (addi k (broadcastInDim SVec ![] hb (constantI S0 32 1024#32))) k

/-- Taking whole rows of the table, one per box. -/
def rowGather (wf : GatherDims.WF STab SCol SBox [1] [0] [] [0] [] 1 ![1, 4]) : GatherDims STab SCol SBox where
  offsetDims := [1]
  collapsedSliceDims := [0]
  operandBatchingDims := []
  startIndicesBatchingDims := []
  startIndexMap := [0]
  indexVectorDim := 1
  sliceSizes := ![1, 4]
  wf := wf

/-- The ground-truth row compared with each predicted box. -/
def gatheredBoxes (hb : S0.BroadcastsInDim SVec ![]) (hc : SVec.BroadcastsInDim SCol ![0])
    (wf : GatherDims.WF STab SCol SBox [1] [0] [] [0] [] 1 ![1, 4])
    (a0 : FVec Ideal STab .f32) (a5 : IVec SVec 32) : FVec Ideal SBox .f32 :=
  Host.gather (rowGather wf) a0 (broadcastInDim SCol ![0] hc (lookupRow hb a5))

/-! ## The loss of one box -/

/-- An infinite value replaced by the largest, resp. the smallest, finite f32. -/
def clampInf (x : EReal) : EReal :=
  let y := Scalar.select (Ideal.cmp .oeq x (Ideal.ofBits .f32 0x7F800000#32)) (Ideal.ofBits .f32 0x7F7FFFFF#32) x
  Scalar.select (Ideal.cmp .oeq y (Ideal.ofBits .f32 0xFF800000#32)) (Ideal.ofBits .f32 0xFF7FFFFF#32) y

/-- The square root, made finite. -/
def rootNum (x : EReal) : EReal := clampInf (Ideal.sqrt x)

/-- The squared difference. -/
def sqd (a b : EReal) : EReal := (a - b) * (a - b)

/-- What a matched box contributes. -/
def matchedLoss (mb pb : FVec Ideal SBox .f32) (conf miou : FVec Ideal SVec .f32) (p : Fin 32768) : EReal :=
  Ideal.ofBits .f32 0x40A00000#32 *
      ((sqd (mb (ix2 p (0 : Fin 4))) (pb (ix2 p (0 : Fin 4))) + sqd (mb (ix2 p (1 : Fin 4))) (pb (ix2 p (1 : Fin 4))))
        + (sqd (rootNum (mb (ix2 p (2 : Fin 4)))) (rootNum (pb (ix2 p (2 : Fin 4))))
            + sqd (rootNum (mb (ix2 p (3 : Fin 4)))) (rootNum (pb (ix2 p (3 : Fin 4))))))
    + sqd (miou (ix1 p)) (conf (ix1 p))

/-- What an unmatched box contributes. -/
def unmatchedLoss (conf : FVec Ideal SVec .f32) (p : Fin 32768) : EReal :=
  Ideal.ofBits .f32 0x3F000000#32 * (conf (ix1 p) * conf (ix1 p))

/-- The loss of box `p`. -/
def boxLoss (mb pb : FVec Ideal SBox .f32) (conf miou : FVec Ideal SVec .f32) (msk : IVec SVec 1) (p : Fin 32768) : EReal :=
  Scalar.select (msk (ix1 p)) (matchedLoss mb pb conf miou p) (unmatchedLoss conf p)

/-- The total: all box losses plus all squared probability differences. -/
def loss (mb pb : FVec Ideal SBox .f32) (conf miou : FVec Ideal SVec .f32) (msk : IVec SVec 1)
    (gm gp : FVec Ideal SGrid .f32) : EReal :=
  (∑ p : Fin 32768, boxLoss mb pb conf miou msk p) + ∑ i : SGrid.Idx, sqd (gm i) (gp i)

/-! ## The same total, arranged in rows of 128 lanes and four tiles -/

/-- Row `r`, lane `l` of the 256 x 128 layout is box `128 r + l`. -/
def boxAt (r : Fin 256) (l : Fin 128) : Fin 32768 := ⟨r.val * 128 + l.val, by omega⟩

/-- Row `R`, lane `l` of the 10240 x 128 layout is cell `128 R + l` of the flattened class grid. -/
def cellAt (R : Fin 10240) (l : Fin 128) : Fin 1310720 := ⟨R.val * 128 + l.val, by omega⟩

/-- Row `r` of tile `t` is row `2560 t + r` of the 10240 x 128 layout. -/
def tileRow (t : Fin 4) (r : Fin 2560) : Fin 10240 := ⟨t.val * 2560 + r.val, by omega⟩

/-- Cell `q` of the flattened class grid, by its three coordinates (row-major: 10240 = 128 * 80 cells per first
    coordinate, 80 per second). -/
def gridAt (q : Fin 1310720) : SGrid.Idx :=
  ix3 (⟨q.val / 10240, by omega⟩ : Fin 128) (⟨q.val / 80 % 128, by omega⟩ : Fin 128) (⟨q.val % 80, by omega⟩ : Fin 80)

/-- The flag of a box as a number: 1 when matched, 0 when not. -/
def bitNum (b : BitVec 1) : EReal := Scalar.uitofp (F := Ideal) .f32 b

/-- A matched/unmatched choice written as a blend with the flag: `f * x + (1 - f) * y`. -/
def blend (b : BitVec 1) (x y : EReal) : EReal :=
  bitNum b * x + (Ideal.ofBits .f32 0x3F800000#32 - bitNum b) * y

/-- One tile of the class grid, summed row by row. -/
def tileSum (D : SGrid.Idx → EReal) (t : Fin 4) : EReal :=
  ∑ r : Fin 2560, ∑ l : Fin 128, D (gridAt (cellAt (tileRow t r) l))

/-- The tiled evaluation: zero, plus the boxes row by row, plus the four tiles in order. -/
def tiledTotal (B : Fin 32768 → EReal) (D : SGrid.Idx → EReal) : EReal :=
  ((((Ideal.ofBits .f32 0x00000000#32 + ∑ r : Fin 256, ∑ l : Fin 128, B (boxAt r l)) + tileSum D 0) + tileSum D 1)
    + tileSum D 2) + tileSum D 3

end Cert.LossSpec

end
-- ==== Proof.LossArith.lean ====
/-
  The arithmetic, on the extended reals, that joins the tiled arrangement of the detection loss to the plain total.

  Two kinds of fact live here, none of which mentions a program.

  * Small scalar facts: a value is never different from itself, so a "replace when not equal to itself" select keeps
    the value; the one-bit flag read as a number is 1 or 0; the word 0x3F800000 is the number one; and therefore the
    blend  f * x + (1 - f) * y  with a 0/1 flag f is the choice between x and y.  Only  1 * x = x,  0 * x = 0,
    x + 0 = x,  1 - 1 = 0  and  1 - 0 = 1  are used, all of which hold on the extended reals with the infinities
    present, so nothing is assumed finite.

  * Re-indexings of finite sums: addition on the extended reals is commutative and associative, so a finite sum may be
    taken in any order.  256 rows of 128 lanes are the 32768 boxes (p = 128 r + l); the 128 x 128 x 80 grid is the
    1310720 cells in row-major order (q = (128 a + b) 80 + c); four tiles of 2560 rows of 128 lanes are those same
    cells (q = 128 (2560 t + r) + l).  Each is a bijection written down with its inverse (quotients and remainders),
    and a sum over one side is the sum over the other.
-/
import proofs.«157804_j69140383531511_2_alg».proof.Proof.LossSpec
import Idealize.ShloMosaic.PureOps.Ideal.Laws
import Idealize.ShloMosaic.PureOps.IdealRules
import Idealize.ShloMosaic.Lib.ValueIdx
import Mathlib.Algebra.BigOperators.Fin
import Mathlib.Algebra.BigOperators.Group.Finset.Basic
import Mathlib.Logic.Equiv.Fin.Basic

noncomputable section

open scoped BigOperators

namespace Cert.LossArith

open Cert.LossSpec Idealize.ShloMosaic Idealize.ShloMosaic.ValueIdx

/-! ## Scalar facts -/

/-- A value is never different from itself, so the comparison "x is not x" answers 0 and the select keeps its last
    argument: the zero offered for the other case is never taken. (Predicate "ordered and not equal".) -/
theorem select_ne_self_one (x z : EReal) : Scalar.select (Ideal.cmp .one x x) z x = x := by
  have h : Ideal.cmp .one x x = 0#1 := by
    show BitVec.ofBool (decide (x ≠ x)) = 0#1
    rw [decide_eq_false (fun hne => hne rfl)]
    rfl
  rw [h]
  exact select_zero z x

/-- The same with the predicate "unordered or not equal": on the extended reals the two predicates are one test. -/
theorem select_ne_self_une (x z : EReal) : Scalar.select (Ideal.cmp .une x x) z x = x := by
  have h : Ideal.cmp .une x x = 0#1 := by
    show BitVec.ofBool (decide (x ≠ x)) = 0#1
    rw [decide_eq_false (fun hne => hne rfl)]
    rfl
  rw [h]
  exact select_zero z x

/-- The one-bit flag 1, read as an unsigned number, is the number 1. -/
theorem bitNum_one : bitNum 1#1 = 1 := by
  show (((1#1 : BitVec 1).toNat : ℝ) : EReal) = 1
  have h : (1#1 : BitVec 1).toNat = 1 := by decide
  rw [h, Nat.cast_one, EReal.coe_one]

/-- The one-bit flag 0, read as an unsigned number, is the number 0. -/
theorem bitNum_zero : bitNum 0#1 = 0 := by
  show (((0#1 : BitVec 1).toNat : ℝ) : EReal) = 0
  have h : (0#1 : BitVec 1).toNat = 0 := by decide
  rw [h, Nat.cast_zero, EReal.coe_zero]

/-- The word 0x3F800000 is the f32 pattern of 1.0 (sign 0, exponent 127, fraction 0), so it denotes the number one. -/
theorem one_word : Ideal.ofBits .f32 0x3F800000#32 = 1 :=
  IdealRules.sign_bit.ideal_onePat .f32

/-- One minus one is zero: both are the real number 1, which is neither infinity, and on finite values subtraction is
    the real one. (The extended reals are not a group, so this is not the general x - x = 0, which fails at infinity.) -/
private theorem one_sub_one : (1 : EReal) - 1 = 0 :=
  EReal.sub_self (EReal.coe_ne_top 1) (EReal.coe_ne_bot 1)

/-- Blending with a 0/1 flag is choosing: with f = 1 the blend is  1 * x + (1 - 1) * y = x + 0 * y = x,  with f = 0
    it is  0 * x + (1 - 0) * y = 0 + 1 * y = y.  No finiteness is needed: 0 * y = 0 for every extended real. -/
theorem blend_eq_select (b : BitVec 1) (x y : EReal) : blend b x y = Scalar.select b x y := by
  by_cases hb : b = 1#1
  · subst hb
    rw [select_one]
    show bitNum 1#1 * x + (Ideal.ofBits .f32 0x3F800000#32 - bitNum 1#1) * y = x
    rw [bitNum_one, one_word, one_mul, one_sub_one, zero_mul, add_zero]
  · have h0 : b = 0#1 := eq_zero_of_ne_one hb
    subst h0
    rw [select_zero]
    show bitNum 0#1 * x + (Ideal.ofBits .f32 0x3F800000#32 - bitNum 0#1) * y = y
    rw [bitNum_zero, one_word, zero_mul, sub_zero, one_mul, zero_add]

/-! ## A rank-1 index set is its coordinate range -/

/-- A rank-1 index is its one coordinate: i ↦ i 0, with inverse a ↦ (the index whose coordinate is a). -/
private def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate (re-index along the bijection a ↦ ix1 a). -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-! ## Rows of lanes

  Three times the same fact: a pair (row, lane) with lane < n is the number  n * row + lane,  and every number below
  m * n is such a pair in exactly one way (row = quotient, lane = remainder on division by n). -/

/-- (r, l) ↦ 128 r + l is a bijection from 256 x 128 onto the 32768 boxes; the inverse is p ↦ (p / 128, p % 128). -/
private def rowsEquiv : Fin 256 × Fin 128 ≃ Fin 32768 where
  toFun x := boxAt x.1 x.2
  invFun p := (⟨p.val / 128, by omega⟩, ⟨p.val % 128, by omega⟩)
  left_inv x := by
    obtain ⟨r, l⟩ := x
    have hr := r.isLt
    have hl := l.isLt
    refine Prod.ext (Fin.ext ?_) (Fin.ext ?_)
    · show (r.val * 128 + l.val) / 128 = r.val
      omega
    · show (r.val * 128 + l.val) % 128 = l.val
      omega
  right_inv p := by
    refine Fin.ext ?_
    show p.val / 128 * 128 + p.val % 128 = p.val
    omega

/-- 256 rows of 128 lanes are the 32768 boxes: the double sum is a sum over pairs (row, lane), and the pairs are the
    boxes through p = 128 r + l. -/
theorem sum_rows (B : Fin 32768 → EReal) : ∑ r : Fin 256, ∑ l : Fin 128, B (boxAt r l) = ∑ p : Fin 32768, B p :=
  calc ∑ r : Fin 256, ∑ l : Fin 128, B (boxAt r l)
      = ∑ x : Fin 256 × Fin 128, B (boxAt x.1 x.2) := (Fintype.sum_prod_type' (fun r l => B (boxAt r l))).symm
    _ = ∑ p : Fin 32768, B p := Equiv.sum_comp rowsEquiv B

/-- (R, l) ↦ 128 R + l is a bijection from 10240 x 128 onto the 1310720 cells; the inverse is q ↦ (q / 128, q % 128). -/
private def cellsEquiv : Fin 10240 × Fin 128 ≃ Fin 1310720 where
  toFun x := cellAt x.1 x.2
  invFun q := (⟨q.val / 128, by omega⟩, ⟨q.val % 128, by omega⟩)
  left_inv x := by
    obtain ⟨R, l⟩ := x
    have hR := R.isLt
    have hl := l.isLt
    refine Prod.ext (Fin.ext ?_) (Fin.ext ?_)
    · show (R.val * 128 + l.val) / 128 = R.val
      omega
    · show (R.val * 128 + l.val) % 128 = l.val
      omega
  right_inv q := by
    refine Fin.ext ?_
    show q.val / 128 * 128 + q.val % 128 = q.val
    omega

/-- 10240 rows of 128 lanes are the 1310720 cells. -/
private theorem sum_cells (E : Fin 1310720 → EReal) :
    ∑ R : Fin 10240, ∑ l : Fin 128, E (cellAt R l) = ∑ q : Fin 1310720, E q :=
  calc ∑ R : Fin 10240, ∑ l : Fin 128, E (cellAt R l)
      = ∑ x : Fin 10240 × Fin 128, E (cellAt x.1 x.2) := (Fintype.sum_prod_type' (fun R l => E (cellAt R l))).symm
    _ = ∑ q : Fin 1310720, E q := Equiv.sum_comp cellsEquiv E

/-- (t, r) ↦ 2560 t + r is a bijection from 4 x 2560 onto the 10240 rows; the inverse is R ↦ (R / 2560, R % 2560). -/
private def tilesEquiv : Fin 4 × Fin 2560 ≃ Fin 10240 where
  toFun x := tileRow x.1 x.2
  invFun R := (⟨R.val / 2560, by omega⟩, ⟨R.val % 2560, by omega⟩)
  left_inv x := by
    obtain ⟨t, r⟩ := x
    have ht := t.isLt
    have hr := r.isLt
    refine Prod.ext (Fin.ext ?_) (Fin.ext ?_)
    · show (t.val * 2560 + r.val) / 2560 = t.val
      omega
    · show (t.val * 2560 + r.val) % 2560 = r.val
      omega
  right_inv R := by
    refine Fin.ext ?_
    show R.val / 2560 * 2560 + R.val % 2560 = R.val
    omega

/-- Four tiles of 2560 rows are the 10240 rows. -/
private theorem sum_tile_rows (G : Fin 10240 → EReal) :
    ∑ t : Fin 4, ∑ r : Fin 2560, G (tileRow t r) = ∑ R : Fin 10240, G R :=
  calc ∑ t : Fin 4, ∑ r : Fin 2560, G (tileRow t r)
      = ∑ x : Fin 4 × Fin 2560, G (tileRow x.1 x.2) := (Fintype.sum_prod_type' (fun t r => G (tileRow t r))).symm
    _ = ∑ R : Fin 10240, G R := Equiv.sum_comp tilesEquiv G

/-! ## The class grid in row-major order -/

/-- The cell with coordinates (a, b, c) is number (128 a + b) 80 + c, and gridAt finds the coordinates back:
    dividing by 10240 = 128 * 80 gives a, dividing by 80 and reducing mod 128 gives b, reducing mod 80 gives c. -/
private theorem gridAt_mk (a b : Fin 128) (c : Fin 80) (h : (a.val * 128 + b.val) * 80 + c.val < 1310720) :
    gridAt ⟨(a.val * 128 + b.val) * 80 + c.val, h⟩ = ix3 a b c := by
  have ha := a.isLt
  have hb := b.isLt
  have hc := c.isLt
  funext d
  match d with
  | ⟨0, _⟩ =>
    refine Fin.ext ?_
    show ((a.val * 128 + b.val) * 80 + c.val) / 10240 = a.val
    omega
  | ⟨1, _⟩ =>
    refine Fin.ext ?_
    show ((a.val * 128 + b.val) * 80 + c.val) / 80 % 128 = b.val
    omega
  | ⟨2, _⟩ =>
    refine Fin.ext ?_
    show ((a.val * 128 + b.val) * 80 + c.val) % 80 = c.val
    omega

/-- q ↦ gridAt q is a bijection from the 1310720 cell numbers onto the 128 x 128 x 80 grid; the inverse sends the
    cell (a, b, c) to (128 a + b) 80 + c. -/
private def gridEquiv : Fin 1310720 ≃ SGrid.Idx where
  toFun := gridAt
  invFun i := ⟨((i 0).val * 128 + (i 1).val) * 80 + (i 2).val, by
    have h0 : (i 0).val < 128 := (i 0).isLt
    have h1 : (i 1).val < 128 := (i 1).isLt
    have h2 : (i 2).val < 80 := (i 2).isLt
    omega⟩
  left_inv q := by
    refine Fin.ext ?_
    show (q.val / 10240 * 128 + q.val / 80 % 128) * 80 + q.val % 80 = q.val
    omega
  right_inv i := by
    obtain ⟨a, b, c, rfl⟩ : ∃ (a b : Fin 128) (c : Fin 80), i = ix3 a b c := ⟨i 0, i 1, i 2, eq_ix3 i⟩
    exact gridAt_mk a b c _

/-- The flattened class grid: every cell of the 128 x 128 x 80 grid is gridAt of exactly one q, so the sum over the
    grid is the sum over q. -/
theorem sum_grid (D : SGrid.Idx → EReal) : ∑ i : SGrid.Idx, D i = ∑ q : Fin 1310720, D (gridAt q) :=
  (Equiv.sum_comp gridEquiv D).symm

/-! ## The tiles, and the total -/

/-- Four tiles of 2560 rows of 128 lanes are the 1310720 cells: tile t, row r, lane l is cell 128 (2560 t + r) + l,
    which runs over every cell once; and the cells are the grid. -/
theorem sum_tiles (D : SGrid.Idx → EReal) :
    tileSum D 0 + tileSum D 1 + tileSum D 2 + tileSum D 3 = ∑ i : SGrid.Idx, D i :=
  calc tileSum D 0 + tileSum D 1 + tileSum D 2 + tileSum D 3
      = ∑ t : Fin 4, tileSum D t := (Fin.sum_univ_four (fun t => tileSum D t)).symm
    _ = ∑ t : Fin 4, ∑ r : Fin 2560, ∑ l : Fin 128, D (gridAt (cellAt (tileRow t r) l)) := rfl
    _ = ∑ R : Fin 10240, ∑ l : Fin 128, D (gridAt (cellAt R l)) :=
        sum_tile_rows (fun R => ∑ l : Fin 128, D (gridAt (cellAt R l)))
    _ = ∑ q : Fin 1310720, D (gridAt q) := sum_cells (fun q => D (gridAt q))
    _ = ∑ i : SGrid.Idx, D i := (sum_grid D).symm

/-- The tiled evaluation is the plain total: the starting word is zero, the rows of lanes are the boxes, and adding the
    four tiles one after the other is adding their sum (associativity), which is the sum over the grid. -/
theorem tiledTotal_eq (B : Fin 32768 → EReal) (D : SGrid.Idx → EReal) :
    tiledTotal B D = (∑ p : Fin 32768, B p) + ∑ i : SGrid.Idx, D i := by
  show ((((Ideal.ofBits .f32 0x00000000#32 + ∑ r : Fin 256, ∑ l : Fin 128, B (boxAt r l)) + tileSum D 0) + tileSum D 1)
      + tileSum D 2) + tileSum D 3 = (∑ p : Fin 32768, B p) + ∑ i : SGrid.Idx, D i
  rw [Ideal.ofBits_zero_f32, zero_add, sum_rows, ← sum_tiles D]
  simp only [add_assoc]

end Cert.LossArith

end
-- ==== Proof.RefValue.lean ====
/-
  The value the reference computes.

  The reference's run (RefRun.lean) ends with each buffer at the fold of its 83 operations over the launch contents.
  This file says what that fold is at the result buffer: the loss of LossSpec.lean, evaluated at

      the ground-truth rows gathered for the boxes,   the predictions reshaped to one row per box,
      the confidences reshaped to one number per box,  the given overlaps,   the matched flags,   the two class grids,

  and that the seven arguments are left as they were.

  Three steps. (1) Unfolding the fold operation by operation gives ONE array expression of the seven arguments
  (`total`); this is bookkeeping: which buffer each operation reads. The gather is never opened: the gathered array
  appears in `total` exactly as LossSpec names it. (2) `total` read at its one index is "zero plus the sum over all
  boxes of a per-box array, plus zero plus the sum over all grid cells of a per-cell array", because a reduction over
  every axis is a sum over every index. (3) The per-box array read at box `p` is `boxLoss … p`: each elementwise
  operation is read at the index, a slice of columns 0-1 (resp. 2-3) of a four-column array at `(p, k)` is the array at
  `(p, k)` (resp. `(p, k + 2)`), a sum over the second axis of a two-column array is the sum of the two columns, and the
  replacement of NaN, +infinity and -infinity by finite numbers is `clampInf`: on the extended reals no value differs
  from itself, so the first of its three choices always keeps the value.
-/
import proofs.«157804_j69140383531511_2_alg».proof.Proof.RefRun
import proofs.«157804_j69140383531511_2_alg».proof.Proof.LossSpec
import proofs.«157804_j69140383531511_2_alg».proof.Proof.LossArith
import Idealize.ShloMosaic.Lib.IdealHost
import Idealize.ShloMosaic.Lib.Pipeline.Value

noncomputable section

open scoped BigOperators

namespace Cert.RefValue

open Cert.ReferenceIdeal Cert.ReferenceIdeal.Gen Idealize.ShloMosaic Idealize.ShloMosaic.TcCoe Idealize.SL.Sem
  Idealize.ShloMosaic.StableHlo Idealize.ShloMosaic.ValueIdx Cert.LossSpec Cert.RefRun

/-! ## The reference's array expression

The same operations as the program's, as functions of arrays: no buffers, no order of execution. -/

/-- NaN to zero, +infinity to the largest finite f32, -infinity to the smallest: three choices in a row, each
    "where the flag is set, the scalar, else the value so far". -/
def finite (x : FVec Ideal S32768x2 .f32) : FVec Ideal S32768x2 .f32 :=
  let a := select (cmpf .une x x) (broadcastInDim S32768x2 ![] bcast_S_S32768x2 (constant (F := Ideal) S_ .f32 0x00000000#32)) x
  let b := select (cmpf .oeq a (broadcastInDim S32768x2 ![] bcast_S_S32768x2 (constant (F := Ideal) S_ .f32 0x7F800000#32)))
    (broadcastInDim S32768x2 ![] bcast_S_S32768x2 (constant (F := Ideal) S_ .f32 0x7F7FFFFF#32)) a
  select (cmpf .oeq b (broadcastInDim S32768x2 ![] bcast_S_S32768x2 (constant (F := Ideal) S_ .f32 0xFF800000#32)))
    (broadcastInDim S32768x2 ![] bcast_S_S32768x2 (constant (F := Ideal) S_ .f32 0xFF7FFFFF#32)) b

/-- The elementwise square. -/
def sq {s : Shape} (x : FVec Ideal s .f32) : FVec Ideal s .f32 := mulf x x

/-- The sum of the two columns of a two-column array, from zero. -/
def rowSum (y : FVec Ideal S32768x2 .f32) : FVec Ideal S32768 .f32 :=
  Host.reduceAdd y (constant (F := Ideal) S_ .f32 0x00000000#32) reducesTo_S32768x2_S32768_d1 h_S_

/-- Columns 0 and 1 of a box array: the centre (cx, cy). -/
def centre (x : FVec Ideal S32768x4 .f32) : FVec Ideal S32768x2 .f32 :=
  extractStridedSlice S32768x2 ![0, 0] x slices_S32768x4_S32768x2_0_0

/-- Columns 2 and 3 of a box array: the extent (w, h). -/
def extent (x : FVec Ideal S32768x4 .f32) : FVec Ideal S32768x2 .f32 :=
  extractStridedSlice S32768x2 ![0, 2] x slices_S32768x4_S32768x2_0_2

/-- The loss of every box, as one array: where matched, five times (squared centre distance plus squared distance of
    the extents' finite roots) plus the squared overlap error; elsewhere half the squared confidence. -/
def boxTerm (mb pb : FVec Ideal S32768x4 .f32) (conf miou : FVec Ideal S32768 .f32) (msk : IVec S32768 1) :
    FVec Ideal S32768 .f32 :=
  select msk
    (addf (mulf (broadcastInDim S32768 ![] bcast_S_S32768 (constant (F := Ideal) S_ .f32 0x40A00000#32))
            (addf (rowSum (sq (subf (centre mb) (centre pb))))
                  (rowSum (sq (subf (finite (Host.sqrt (extent mb))) (finite (Host.sqrt (extent pb))))))))
          (sq (subf miou conf)))
    (mulf (broadcastInDim S32768 ![] bcast_S_S32768 (constant (F := Ideal) S_ .f32 0x3F000000#32)) (mulf conf conf))

/-- The reference's result as an expression of its seven arguments: the box losses summed from zero, plus the squared
    differences of the class grids summed from zero. -/
def total (a0 : FVec Ideal S1024x4 .f32) (a1 : FVec Ideal S128x128x2x4 .f32) (a2 : FVec Ideal S128x128x2 .f32)
    (a3 a4 : FVec Ideal S128x128x80 .f32) (a5 : IVec S32768 32) (a6 : FVec Ideal S32768 .f32) : FVec Ideal S_ .f32 :=
  addf
    (Host.reduceAdd
      (boxTerm (gatheredBoxes bcast_S_S32768 bcast_S32768_S32768x1_0 gather_S1024x4_S32768x1_S32768x4_1_0_n_n_0_1_14_wf a0 a5)
        (shapeCast S32768x4 a1 shapeCasts_S128x128x2x4_S32768x4) (shapeCast S32768 a2 shapeCasts_S128x128x2_S32768) a6
        (matchedBit bcast_S_S32768 a5))
      (constant (F := Ideal) S_ .f32 0x00000000#32) reducesTo_S32768_S_d0 h_S_)
    (Host.reduceAdd (sq (subf a3 a4)) (constant (F := Ideal) S_ .f32 0x00000000#32) reducesTo_S128x128x80_S_d0_1_2 h_S_)

/-! ## Step 1: the fold at the result buffer is that expression -/

-- The gather, the reductions and the layout operations are kept closed while the two sides are compared: the
-- comparison is of which buffer feeds which operation, and never looks inside them (opened, each is a search or a
-- fold over tens of thousands of elements).
attribute [local irreducible] Host.gather Host.reduceAdd shapeCast extractStridedSlice broadcastInDim in
set_option maxRecDepth 8192 in
set_option maxHeartbeats 4000000 in
/-- Each operation's result buffer holds its function of its operands' buffers, every other buffer what it held: read
    from the last operation back to the arguments, the result buffer holds `total` of the seven arguments. The
    index chain of the gather (matched flag, chosen row, wrap-around, column of start indices) is, operation for
    operation, `LossSpec.gatheredBoxes`. -/
theorem out_eq (V : Valuation τ sig (Elt Ideal)) :
    after (ops (F := Ideal)) V (main_v40 : DevRef τ sig)
      = total (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

/-- No operation writes an argument's buffer: it holds what it held. -/
theorem arg0_eq (V : Valuation τ sig (Elt Ideal)) :
    after (ops (F := Ideal)) V (main_arg0 : DevRef τ sig) = V (main_arg0 : DevRef τ sig) := by after_results_simp
theorem arg1_eq (V : Valuation τ sig (Elt Ideal)) :
    after (ops (F := Ideal)) V (main_arg1 : DevRef τ sig) = V (main_arg1 : DevRef τ sig) := by after_results_simp
theorem arg2_eq (V : Valuation τ sig (Elt Ideal)) :
    after (ops (F := Ideal)) V (main_arg2 : DevRef τ sig) = V (main_arg2 : DevRef τ sig) := by after_results_simp
theorem arg3_eq (V : Valuation τ sig (Elt Ideal)) :
    after (ops (F := Ideal)) V (main_arg3 : DevRef τ sig) = V (main_arg3 : DevRef τ sig) := by after_results_simp
theorem arg4_eq (V : Valuation τ sig (Elt Ideal)) :
    after (ops (F := Ideal)) V (main_arg4 : DevRef τ sig) = V (main_arg4 : DevRef τ sig) := by after_results_simp
theorem arg5_eq (V : Valuation τ sig (Elt Ideal)) :
    after (ops (F := Ideal)) V (main_arg5 : DevRef τ sig) = V (main_arg5 : DevRef τ sig) := by after_results_simp
theorem arg6_eq (V : Valuation τ sig (Elt Ideal)) :
    after (ops (F := Ideal)) V (main_arg6 : DevRef τ sig) = V (main_arg6 : DevRef τ sig) := by after_results_simp

/-! ## Step 3 first: the per-box array at one box

Everything below is stated at ONE symbolic box `p` (and column `k`), over arbitrary arrays. -/

/-- A square at an index is the element times itself. -/
theorem sq_apply {s : Shape} (x : FVec Ideal s .f32) (i : s.Idx) : sq x i = x i * x i := rfl

/-- The three replacements at an index. The first tests whether the element differs from itself: never, on the
    extended reals, so it keeps the element; the other two are `clampInf`, choice for choice. -/
theorem finite_apply (x : FVec Ideal S32768x2 .f32) (j : S32768x2.Idx) : finite x j = clampInf (x j) := by
  unfold finite clampInf
  -- a choice at an index chooses between the elements, a comparison at an index compares the elements
  simp only [select_apply, cmpf_apply]
  -- the first choice: "differs from itself" is false, the element is kept
  rw [show FloatOps.cmpf .une (x j) (x j) = Ideal.cmp .une (x j) (x j) from rfl, LossArith.select_ne_self_une]
  -- the other two: a broadcast scalar constant at an index is the constant's value, a comparison of extended reals is
  -- the ideal instance's, both by definition
  rfl

/-- Column `k` of the centre is column `k` of the box array … -/
theorem centre_apply (x : FVec Ideal S32768x4 .f32) (p : Fin 32768) (k : Fin 2) :
    centre x (ix2 p k) = x (ix2 p (⟨k.val, by omega⟩ : Fin 4)) :=
  extractStridedSlice_apply _ x _ _ _ fun a => match a with
    | ⟨0, _⟩ => by show p.val = 0 + p.val; omega
    | ⟨1, _⟩ => by show k.val = 0 + k.val; omega

/-- … and column `k` of the extent is column `k + 2`. -/
theorem extent_apply (x : FVec Ideal S32768x4 .f32) (p : Fin 32768) (k : Fin 2) :
    extent x (ix2 p k) = x (ix2 p (⟨k.val + 2, by omega⟩ : Fin 4)) :=
  extractStridedSlice_apply _ x _ _ _ fun a => match a with
    | ⟨0, _⟩ => by show p.val = 0 + p.val; omega
    | ⟨1, _⟩ => by show k.val + 2 = 2 + k.val; omega

/-- The index of a two-column array that reduces into box `p` with second coordinate `k` is `(p, k)`. -/
theorem lift_row (h : S32768x2.Reduces [1] S32768) (p : Fin 32768) (k : Fin 2) : h.lift (ix1 p) k = ix2 p k := by
  funext c
  match c with
  | ⟨0, _⟩ => exact Fin.ext rfl
  | ⟨1, _⟩ => exact Fin.ext rfl

/-- The sum over the second axis, from zero, at box `p`: the two columns added. -/
theorem rowSum_apply (y : FVec Ideal S32768x2 .f32) (p : Fin 32768) :
    rowSum y (ix1 p) = y (ix2 p (0 : Fin 2)) + y (ix2 p (1 : Fin 2)) := by
  have h : S32768x2.Reduces [1] S32768 := by decide
  unfold rowSum
  rw [hostReduceAdd_apply, Ideal.hostReduceAdd_single reducesTo_S32768x2_S32768_d1 h, constant_apply,
    Ideal.ofBits_zero_f32, zero_add]
  show ∑ k : Fin 2, y (h.lift (ix1 p) k) = _
  rw [Fin.sum_univ_two, lift_row, lift_row]

/-- The centre part at box `p`: the two squared coordinate differences. -/
theorem centreTerm_apply (mb pb : FVec Ideal S32768x4 .f32) (p : Fin 32768) :
    rowSum (sq (subf (centre mb) (centre pb))) (ix1 p)
      = sqd (mb (ix2 p (0 : Fin 4))) (pb (ix2 p (0 : Fin 4))) + sqd (mb (ix2 p (1 : Fin 4))) (pb (ix2 p (1 : Fin 4))) := by
  rw [rowSum_apply]
  simp only [sq_apply, subf_apply, centre_apply]
  rfl

/-- The extent part at box `p`: the two squared differences of the finite roots. -/
theorem extentTerm_apply (mb pb : FVec Ideal S32768x4 .f32) (p : Fin 32768) :
    rowSum (sq (subf (finite (Host.sqrt (extent mb))) (finite (Host.sqrt (extent pb))))) (ix1 p)
      = sqd (rootNum (mb (ix2 p (2 : Fin 4)))) (rootNum (pb (ix2 p (2 : Fin 4))))
        + sqd (rootNum (mb (ix2 p (3 : Fin 4)))) (rootNum (pb (ix2 p (3 : Fin 4)))) := by
  rw [rowSum_apply]
  simp only [sq_apply, subf_apply, finite_apply]
  -- the host's square root at an index is the square root of the element
  show (clampInf (Ideal.sqrt (extent mb (ix2 p (0 : Fin 2)))) - clampInf (Ideal.sqrt (extent pb (ix2 p (0 : Fin 2)))))
        * (clampInf (Ideal.sqrt (extent mb (ix2 p (0 : Fin 2)))) - clampInf (Ideal.sqrt (extent pb (ix2 p (0 : Fin 2)))))
      + (clampInf (Ideal.sqrt (extent mb (ix2 p (1 : Fin 2)))) - clampInf (Ideal.sqrt (extent pb (ix2 p (1 : Fin 2)))))
        * (clampInf (Ideal.sqrt (extent mb (ix2 p (1 : Fin 2)))) - clampInf (Ideal.sqrt (extent pb (ix2 p (1 : Fin 2))))) = _
  simp only [extent_apply]
  rfl

/-- A scalar constant broadcast over the boxes reads the constant's value at every box. -/
theorem scalar_apply (v : BitVec 32) (i : S32768.Idx) :
    broadcastInDim S32768 ![] bcast_S_S32768 (constant (F := Ideal) S_ .f32 v) i = Ideal.ofBits .f32 v := rfl

/-- THE PER-BOX ARRAY AT BOX `p` IS THE LOSS OF BOX `p`. -/
theorem boxTerm_apply (mb pb : FVec Ideal S32768x4 .f32) (conf miou : FVec Ideal S32768 .f32) (msk : IVec S32768 1)
    (p : Fin 32768) : boxTerm mb pb conf miou msk (ix1 p) = boxLoss mb pb conf miou msk p := by
  unfold boxTerm boxLoss matchedLoss unmatchedLoss
  rw [select_apply, addf_apply, mulf_apply, addf_apply, centreTerm_apply, extentTerm_apply, scalar_apply, sq_apply,
    subf_apply, mulf_apply, scalar_apply, mulf_apply]
  rfl

/-! ## Step 2: the two total sums -/

/-- `total` at its one index is the loss: each reduction over every axis is its initial value, zero, plus the sum
    over every index; the sum over the one-coordinate indices of the boxes is the sum over the boxes, where the
    summand is the box's loss (`boxTerm_apply`); the grid's summand is the squared difference by definition. -/
theorem total_eq (a0 : FVec Ideal S1024x4 .f32) (a1 : FVec Ideal S128x128x2x4 .f32) (a2 : FVec Ideal S128x128x2 .f32)
    (a3 a4 : FVec Ideal S128x128x80 .f32) (a5 : IVec S32768 32) (a6 : FVec Ideal S32768 .f32) :
    total a0 a1 a2 a3 a4 a5 a6 = fun _ => loss
      (gatheredBoxes bcast_S_S32768 bcast_S32768_S32768x1_0 gather_S1024x4_S32768x1_S32768x4_1_0_n_n_0_1_14_wf a0 a5)
      (shapeCast S32768x4 a1 shapeCasts_S128x128x2x4_S32768x4) (shapeCast S32768 a2 shapeCasts_S128x128x2_S32768) a6
      (matchedBit bcast_S_S32768 a5) a3 a4 := by
  funext j
  unfold total loss
  rw [addf_apply, hostReduceAdd_apply, hostReduceAdd_apply,
    Ideal.hostReduceAdd_total reducesTo_S32768_S_d0 (fun b => b.elim0),
    Ideal.hostReduceAdd_total reducesTo_S128x128x80_S_d0_1_2 (fun b => b.elim0),
    constant_apply, Ideal.ofBits_zero_f32, zero_add, zero_add, LossArith.sum_idx1]
  simp only [boxTerm_apply]
  rfl

/-! ## The run -/

/-- At the compiled mesh, from any memory with zero counters: every weakly fair execution of the reference terminates
    with the result buffer holding the loss of the gathered ground truth, the reshaped predictions and confidences,
    the given overlaps, the matched flags and the two class grids, and with the seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40) = (fun _ => loss
          (gatheredBoxes bcast_S_S32768 bcast_S32768_S32768x1_0 gather_S1024x4_S32768x1_S32768x4_1_0_n_n_0_1_14_wf
            (m ((c.tc : Thread nD τ).loc main_arg0)) (m ((c.tc : Thread nD τ).loc main_arg5)))
          (shapeCast S32768x4 (m ((c.tc : Thread nD τ).loc main_arg1)) shapeCasts_S128x128x2x4_S32768x4)
          (shapeCast S32768 (m ((c.tc : Thread nD τ).loc main_arg2)) shapeCasts_S128x128x2_S32768)
          (m ((c.tc : Thread nD τ).loc main_arg6))
          (matchedBit bcast_S_S32768 (m ((c.tc : Thread nD τ).loc main_arg5)))
          (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c main_v40).trans ((out_eq _).trans (total_eq _ _ _ _ _ _ _)),
        (h c main_arg0).trans (arg0_eq _), (h c main_arg1).trans (arg1_eq _), (h c main_arg2).trans (arg2_eq _),
        (h c main_arg3).trans (arg3_eq _), (h c main_arg4).trans (arg4_eq _), (h c main_arg5).trans (arg5_eq _),
        (h c main_arg6).trans (arg6_eq _)⟩)
    (run_main m ρ)

end Cert.RefValue

end
-- ==== Proof.KernelPieces.lean ====
/-
  What one run of the kernel body leaves in the one-word accumulator it carries from grid point to grid point,
  and in the one-word output, read back as VALUES.

  The body has two conditionals on the grid coordinate, hence three cases. At the first point it stores zero into the
  accumulator, adds the sum over all boxes of the blended box loss (a function of the eleven 256 x 128 blocks it
  loads) to what it reads back, and then — as at every point — adds the sum over the point's 2560 x 128 tile of the
  squared differences of the two probability blocks. At a middle point only that last step happens. At the last point
  that step happens and the accumulator is copied to the output. Every store covers its whole one-word buffer, so what
  a buffer holds after the body is the payload of the LAST store into it, and a load of the accumulator between two
  stores reads the payload of the store before it.
-/
import proofs.«157804_j69140383531511_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelPieces

open Cert.KernelIdeal Cert.KernelIdeal.Gen

variable {F : FTy → Type} [FloatOps F]

/-- Every buffer is read and written from its origin. -/
theorem hz : (![0, 0] : Fin 2 → Nat) = fun _ => 0 := funext fun a => by fin_cases a <;> rfl

/-- What the first point adds to the accumulator `s` it reads back: the sum over the boxes, as the body computes it
    from the eleven box blocks (ground-truth cx, cy, w, h; predicted cx, cy, w, h; confidence; matched iou; matched
    flag), in the body's own order of operations. -/
def boxAcc (x0 x1 x2 x3 x4 x5 x6 x7 x8 x9 x10 : Vec F S256x128 .f32) (s : Vec F S1x1 .f32) : FVec F S1x1 .f32 :=
  k0_pay1 (k0_pay7 x8) (k0_pay8 x9) (k0_pay9 x10) (k0_pay10 x0 x1 x4 x5)
    (k0_pay13 (k0_pay5 x6) (k0_pay11 x2) (k0_pay12 x2) (FloatOps.ofBits .f32 0#32))
    (k0_pay14 (k0_pay4 x3)) (k0_pay15 (k0_pay6 x7)) (k0_pay16 (k0_pay6 x7)) k0_pay17 s

/-- What every point adds to the accumulator `s` it reads: the sum over its tile of the squared differences of the
    two probability blocks. -/
abbrev tileAcc (x11 x12 : Vec F S2560x128 .f32) (s : Vec F S1x1 .f32) : FVec F S1x1 .f32 := k0_pay2 x11 x12 s

/-- A MIDDLE point: the accumulator, found holding `xs0`, is left at `xs0` plus the tile's sum. -/
theorem scratch_B (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S1x1 .f32) (harg14 : arg14.IsWhole) (arg15 : Memref sig .tc .vmem S1x1 .f32) (harg15 : arg15.IsWhole) (hc0 : ¬cond0_0 i) (hc1 : ¬cond0_1 i)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S2560x128 .f32) (x12 : Vec F S2560x128 .f32) (xs0 : Vec F S1x1 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0 = tileAcc x11 x12 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0)]
  unfold kernelRun0_B
  dsimp only
  rw [View.canon_unit_zero hz]
  simp only [View.readAt_eq_ld, harg12.read_unread, harg13.read_unread, harg15.read_unread,
    View.ld_unit_zero (S := S2560x128) hz, View.ld_unit_zero (S := S1x1) hz]

/-- The LAST point leaves the accumulator likewise … -/
theorem scratch_C (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S1x1 .f32) (harg14 : arg14.IsWhole) (arg15 : Memref sig .tc .vmem S1x1 .f32) (harg15 : arg15.IsWhole) (hc0 : ¬cond0_0 i) (hc1 : cond0_1 i)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S2560x128 .f32) (x12 : Vec F S2560x128 .f32) (xs0 : Vec F S1x1 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0 = tileAcc x11 x12 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0)]
  unfold kernelRun0_C
  dsimp only
  sl_unfold_words
  rw [View.canon_unit_zero hz]
  simp only [View.readAt_eq_ld, harg12.read_unread, harg13.read_unread, harg15.read_unread,
    View.ld_unit_zero (S := S2560x128) hz, View.ld_unit_zero (S := S1x1) hz]

/-- … and copies it to the output: the output's one store writes what a load of the accumulator reads after the
    accumulator's store, that is, that store's payload. -/
theorem out_C (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S1x1 .f32) (harg14 : arg14.IsWhole) (arg15 : Memref sig .tc .vmem S1x1 .f32) (harg15 : arg15.IsWhole) (hc0 : ¬cond0_0 i) (hc1 : cond0_1 i)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S2560x128 .f32) (x12 : Vec F S2560x128 .f32) (xs0 : Vec F S1x1 .f32) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0 = tileAcc x11 x12 xs0 := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0)]
  unfold kernelRun0_C
  dsimp only
  sl_unfold_words
  rw [View.canon_unit_zero hz, View.readCov_cons_toLoadRect]
  simp only [View.readAt_eq_ld, harg12.read_unread, harg13.read_unread, harg15.read_unread,
    View.ld_unit_zero (S := S2560x128) hz, View.ld_unit_zero (S := S1x1) hz]

/-- The FIRST point: zero is stored; the box sum is added to the zero read back; the tile's sum is added to that. -/
theorem scratch_A (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S1x1 .f32) (harg14 : arg14.IsWhole) (arg15 : Memref sig .tc .vmem S1x1 .f32) (harg15 : arg15.IsWhole) (hc0 : cond0_0 i) (hc1 : ¬cond0_1 i)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S2560x128 .f32) (x12 : Vec F S2560x128 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12
      = tileAcc x11 x12 (boxAcc x0 x1 x2 x3 x4 x5 x6 x7 x8 x9 x10 k0_pay3) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12)]
  unfold kernelRun0_A
  dsimp only
  sl_unfold_words
  rw [View.canon_cons_unit_zero (S := S1x1) hz, View.readCov_cons_toLoadRect, View.readCov_cons_toLoadRect]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x128) hz, View.ld_unit_zero (S := S2560x128) hz]
  rfl

end Cert.KernelPieces

end
-- ==== Proof.KernelAcc.lean ====
/-
  The accumulator, point by point. The kernel walks a grid of four points and carries a one-word accumulator across
  them. What the accumulator holds after point n is a running total defined by recursion on n: after the first point
  it is zero plus the box sum plus the first tile's sum, and after each later point it is the previous value plus that
  point's tile sum. The frame certificate records the accumulator's contents case by case (first point, middle point,
  last point); by induction on the point those contents are the running total, and at the last point the same value is
  what the body copies into the output.
-/
import proofs.«157804_j69140383531511_2_alg».proof.Proof.KernelPieces
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelAcc

open Cert.KernelIdeal Cert.KernelIdeal.Gen Cert.KernelPieces

variable {F : FTy → Type} [FloatOps F]
variable (m : (ℓ : Loc nD τ sig) → Buf (Elt F) ℓ) (ρ : Dev nD → PrngReg)

/-- THE RUNNING TOTAL: what the accumulator holds after grid point `n`. After the first point, zero plus the box sum
    plus the first tile's sum; after each later point, what the point before left plus that point's tile sum. -/
def acc (c : Dev nD) : (n : ℕ) → n < cfg0.N → Vec F S1x1 .f32
  | 0, h => tileAcc (iblk m c 11 ⟨0, h⟩) (iblk m c 12 ⟨0, h⟩) (boxAcc (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) k0_pay3)
  | n + 1, h => tileAcc (iblk m c 11 ⟨n + 1, h⟩) (iblk m c 12 ⟨n + 1, h⟩) (acc c n (Nat.lt_of_succ_lt h))

/-- The accumulator's contents after each point, as the frame certificate records them case by case, are the running
    total: by induction on the point, the first point being the first case and every later point a middle or the last
    case, both of which add the point's tile sum to what they find. -/
theorem scratch_eq (c : Dev nD) : ∀ (n : ℕ) (h : n < cfg0.N), (outsAt0 m c n h).2 = acc m c n h
  | 0, h => by
    rw [outsAt0_A m c ⟨0, h⟩ rfl (by show ¬(0 % 4 = 3); decide)]
    dsimp only
    rw [scratch_A]
    rfl
  | n + 1, h => by
    have hN : cfg0.N = 4 := N_0
    have h0 : ¬(⟨n + 1, h⟩ : Fin cfg0.N).val % 4 = 0 := by dsimp only; omega
    by_cases h3 : (⟨n + 1, h⟩ : Fin cfg0.N).val % 4 = 3
    · rw [outsAt0_C m c ⟨n + 1, h⟩ h0 h3]
      dsimp only
      rw [scratch_C]
      show tileAcc _ _ (outsAt0 m c n _).2 = tileAcc _ _ (acc m c n _)
      rw [scratch_eq c n]
    · rw [outsAt0_B m c ⟨n + 1, h⟩ h0 h3]
      dsimp only
      rw [scratch_B]
      show tileAcc _ _ (outsAt0 m c n _).2 = tileAcc _ _ (acc m c n _)
      rw [scratch_eq c n]

/-- At a point of the last case the output's staging buffer is left holding the running total: that case copies the
    accumulator, which it has just brought to that value. -/
theorem out_last (c : Dev nD) (n : ℕ) (h : n + 1 < cfg0.N) (h3 : (⟨n + 1, h⟩ : Fin cfg0.N).val % 4 = 3) :
    (outsAt0 m c (n + 1) h).1 = acc m c (n + 1) h := by
  have hN : cfg0.N = 4 := N_0
  have h0 : ¬(⟨n + 1, h⟩ : Fin cfg0.N).val % 4 = 0 := by dsimp only; omega
  rw [outsAt0_C m c ⟨n + 1, h⟩ h0 h3]
  dsimp only
  rw [out_C]
  show tileAcc _ _ (outsAt0 m c n _).2 = tileAcc _ _ (acc m c n _)
  rw [scratch_eq m c n]

/-- Point 3 is a point of the grid. -/
theorem three_lt : 3 < cfg0.N := by rw [show cfg0.N = 4 from N_0]; decide

/-- The result: the running total after the last point, point 3. -/
abbrev result (c : Dev nD) : Vec F S1x1 .f32 := acc m c 3 three_lt

/-- After the last point the output's staging buffer holds the result. -/
theorem out_eq (c : Dev nD) : (outsAt0 m c 3 three_lt).1 = result m c :=
  out_last m c 2 three_lt rfl

end Cert.KernelAcc

end
-- ==== Proof.KernelResult.lean ====
/-
  From the running total to the program's result. The output window's block is the whole one-word output array and is
  written back once, after the last grid point, when its staging buffer holds the running total; so the array ends
  holding it. The one host operation after the region reshapes that one-word array to a scalar.
-/
import proofs.«157804_j69140383531511_2_alg».proof.Proof.KernelAcc
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelResult

open Cert.KernelIdeal Cert.KernelIdeal.Gen Cert.KernelPieces Cert.KernelAcc

variable {F : FTy → Type} [FloatOps F]
variable (m : (ℓ : Loc nD τ sig) → Buf (Elt F) ℓ) (ρ : Dev nD → PrngReg)

/-- The one write-back of the output, after the last point, writes the result: the output's block is the whole
    one-word array, read through zero offsets. -/
theorem flushed_eq (c : Dev nD) (t : Fin cfg0.N) (hf : (cfg0.win 13).flush t = true) :
    (dats m 0 c).flushed 13 t = ((cfg0.win 13).blk t).view.read (Elt F) (result m c) := by
  have hN : cfg0.N = 4 := N_0
  have h3 : t.val = 3 := by have := (flush0_13 t).mp hf; have := t.isLt; omega
  obtain rfl : t = t0_3 := Fin.ext h3
  show (cfg0.win 13).cut (grid0.coords t0_3) ((dats m 0 c).after 13 t0_3) = _
  rw [after0_13]
  rw [show (outsAt0 m c (t0_3 : Fin cfg0.N).val t0_3.isLt).1 = result m c from out_eq m c]
  have hz' : (fun a => win0_13.index t0_3 a * main_v44.ty.shape.size a) = fun _ => 0 := funext fun a => by fin_cases a <;> decide
  exact (Memref.read_access_unit_zero (Elt F) main_v44 hz' (fun a => by rw [congrFun hz' a]; simp) (result m c)).symm

/-- So the output array ends holding the result: the last point's block covers its one entry. -/
theorem final_o (c : Dev nD) : (dats m 0 c).arrAt 13 cfg0.N = result m c :=
  (dats m 0 c).arrAt_eq_of_cover 13 (result m c) (flushed_eq m c) fun i =>
    ⟨t0_3, (flush0_13 t0_3).mpr rfl, by
      show i ∈ ((View.whole main_v44).slice (win0_13.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_13.index t0_3 0 * win0_13.size 0 ≤ (i 0 : Nat) ∧ (i 0 : Nat) < win0_13.index t0_3 0 * win0_13.size 0 + win0_13.xsize (grid0.coords t0_3) 0
                  rw [show win0_13.index t0_3 0 * win0_13.size 0 = 0 from by decide +kernel, show win0_13.xsize (grid0.coords t0_3) 0 = 1 from by decide +kernel]; omega
      | ⟨1, _⟩ => show win0_13.index t0_3 1 * win0_13.size 1 ≤ (i 1 : Nat) ∧ (i 1 : Nat) < win0_13.index t0_3 1 * win0_13.size 1 + win0_13.xsize (grid0.coords t0_3) 1
                  rw [show win0_13.index t0_3 1 * win0_13.size 1 = 0 from by decide +kernel, show win0_13.xsize (grid0.coords t0_3) 1 = 1 from by decide +kernel]; omega⟩

/-- The host operation after the region: the scalar result is the one-word output array, reshaped. -/
theorem tail_eq (c : Dev nD) :
    Pipeline.afterTail₀ cfgs (dats m) 0 (V0 m) [hostOps1] c main_v45
      = shapeCast S_ (result m c) shapeCasts_S1x1_S_ := by
  unfold Pipeline.afterTail₀
  show StableHlo.after hostOps1 _ (Proc.devRef .tc main_v45) = _
  after_results
  have e : Pipeline.withArrays (cfgs 0).spec c (V0 m c) (fun w => (dats m 0 c).arrAt w (cfgs 0).N) (Proc.tc.devRef main_v44)
      = result m c :=
    (Pipeline.withArrays_arr spec0 launch0.win.arr_inj c _ _ 13).trans (final_o m c)
  rw [e]
  rfl

/-- THE RUN, READ: every weakly fair execution of the program terminates with the scalar result buffer at the reshaped
    running total and the seven argument arrays as launched. -/
theorem run : θ_run defs (onTc (τ := τ) (main (F := F))) ⟨m, fun _ => 0, ρ⟩ fun r => ∀ c : Dev nD,
      r.2.mem ((c.tc : Thread nD τ).loc main_v45) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v45 (Pipeline.mem_restRefs_of main_v45 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelResult

end
-- ==== Proof.KernelArrays.lean ====
/-
  The thirteen arrays the tiled evaluation reads, each at ONE index.

  Before the tiled evaluation starts, the program rearranges its arguments by layout operations only (no arithmetic):
  the ground-truth row compared with each predicted box is looked up; that 32768 x 4 array and the 32768 x 4 array of
  predicted boxes are each split into their four columns, every column laid out as 256 rows of 128 lanes; the
  confidences, the matched overlaps and the matched flags (the flag as a number, 1 or 0) are laid out the same way; the
  two 128 x 128 x 80 probability grids are flattened to 10240 rows of 128 lanes.

  Every such array read at (row r, lane l) is one entry of an argument array:
      a column k of a 32768 x 4 array  ->  entry (128 r + l, k)
      a vector of 32768 entries        ->  entry 128 r + l
      a flattened grid                 ->  the cell with row-major position q = 128 R + l, that is
                                           (q / 10240, q / 80 mod 128, q mod 80), since 10240 = 128 * 80.
  The first part proves these three facts for an ARBITRARY array; the second part writes each of the thirteen arrays
  as its chain of layout operations over the arguments; the third part combines the two.
-/
import proofs.«157804_j69140383531511_2_alg».proof.Proof.Gen.KernelIdeal.Frame
import proofs.«157804_j69140383531511_2_alg».proof.Proof.LossSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelArrays

open Idealize.ShloMosaic Idealize.ShloMosaic.TcCoe Idealize.ShloMosaic.StableHlo
open Cert.KernelIdeal Cert.KernelIdeal.Gen Cert.LossSpec Idealize.ShloMosaic.ValueIdx

/-! ## Three layouts read at an index, for an arbitrary array -/

section Layout
variable {α : Type}

/-- A vector of 32768 entries laid out as 256 rows of 128 lanes: row r, lane l holds entry 128 r + l. Both sides have
    row-major position 128 r + l. -/
theorem rows_apply (x : (⟨1, ![32768]⟩ : Shape).Idx → α)
    (h : (⟨1, ![32768]⟩ : Shape).ShapeCasts ⟨2, ![256, 128]⟩) (r : Fin 256) (l : Fin 128) :
    shapeCast ⟨2, ![256, 128]⟩ x h (ix2 r l) = x (ix1 (boxAt r l)) :=
  shapeCast_apply x h _ _ (by
    rw [Shape.rowMajor_val_one, Shape.rowMajor_val_two]
    show r.val * 128 + l.val = r.val * 128 + l.val
    rfl)

/-- Column k of a 32768 x 4 array, taken as row k of the transposed 4 x 32768 array and laid out as 256 rows of 128
    lanes: row r, lane l holds entry (128 r + l, k). Read from the outside in: the 256 x 128 layout at (r, l) is the
    vector at p = 128 r + l; the vector at p is the 1 x 32768 slice at (0, p); the slice starting at row k reads the
    transposed array at (k + 0, p); the transposed array at (k, p) is the array at (p, k). -/
theorem column_apply (x : (⟨2, ![32768, 4]⟩ : Shape).Idx → α) (o : Nat) (k : Fin 4) (hk : k.val = o)
    (hT : (⟨2, ![32768, 4]⟩ : Shape).Transposes [1, 0] ⟨2, ![4, 32768]⟩)
    (hS : (⟨2, ![4, 32768]⟩ : Shape).Slices ![o, 0] ⟨2, ![1, 32768]⟩)
    (h1 : (⟨2, ![1, 32768]⟩ : Shape).ShapeCasts ⟨1, ![32768]⟩)
    (h2 : (⟨1, ![32768]⟩ : Shape).ShapeCasts ⟨2, ![256, 128]⟩) (r : Fin 256) (l : Fin 128) :
    shapeCast ⟨2, ![256, 128]⟩
        (shapeCast ⟨1, ![32768]⟩
          (extractStridedSlice ⟨2, ![1, 32768]⟩ ![o, 0] (transpose ⟨2, ![4, 32768]⟩ [1, 0] x hT) hS) h1) h2 (ix2 r l)
      = x (ix2 (boxAt r l) k) := by
  refine (rows_apply _ h2 r l).trans ?_
  refine (shapeCast_1a_a_apply _ h1 (boxAt r l)).trans ?_
  refine (slice2_axis0_apply o _ hS (0 : Fin 1) (boxAt r l) k (by rw [hk]; rfl)).trans ?_
  exact transpose_ix2_apply x hT k (boxAt r l)

/-- The 128 x 128 x 80 grid flattened to 10240 rows of 128 lanes: row R, lane l holds the cell whose row-major position
    is q = 128 R + l. With a = q / 10240, b = q / 80 mod 128, c = q mod 80 that position is (a * 128 + b) * 80 + c = q:
    q = 80 (q / 80) + c and q / 80 = 128 a + b, because (q / 80) / 128 = q / 10240. -/
theorem grid_apply (x : (⟨3, ![128, 128, 80]⟩ : Shape).Idx → α)
    (h : (⟨3, ![128, 128, 80]⟩ : Shape).ShapeCasts ⟨2, ![10240, 128]⟩) (R : Fin 10240) (l : Fin 128) :
    shapeCast ⟨2, ![10240, 128]⟩ x h (ix2 R l) = x (gridAt (cellAt R l)) :=
  shapeCast_apply x h _ _ (by
    rw [Shape.rowMajor_val_three, Shape.rowMajor_val_two]
    show ((R.val * 128 + l.val) / 10240 * 128 + (R.val * 128 + l.val) / 80 % 128) * 80 + (R.val * 128 + l.val) % 80
      = R.val * 128 + l.val
    omega)

end Layout

/-! ## The arrays the layouts are taken of -/

variable (m : (ℓ : Loc nD τ sig) → Buf (Elt Ideal) ℓ) (c : Dev nD)

/-- The ground-truth row compared with each predicted box: a row lookup in the table (argument 0) by the assignment
    array (argument 5). -/
def mbK : FVec Ideal S32768x4 .f32 :=
  gatheredBoxes bcast_S_S32768 bcast_S32768_S32768x1_0 gather_S1024x4_S32768x1_S32768x4_1_0_n_n_0_1_14_wf
    (m ((c : Thread nD τ).loc main_arg0)) (m ((c : Thread nD τ).loc main_arg5))
/-- The predicted boxes, one row (cx, cy, w, h) per box: argument 1 with its first three axes merged. -/
def pbK : FVec Ideal S32768x4 .f32 :=
  shapeCast S32768x4 (m ((c : Thread nD τ).loc main_arg1)) shapeCasts_S128x128x2x4_S32768x4
/-- The predicted confidences, one per box: argument 2 flattened. -/
def confK : FVec Ideal S32768 .f32 :=
  shapeCast S32768 (m ((c : Thread nD τ).loc main_arg2)) shapeCasts_S128x128x2_S32768
/-- The matched flag of each box: its assignment (argument 5) is at least zero. -/
def mskK : IVec S32768 1 := matchedBit bcast_S_S32768 (m ((c : Thread nD τ).loc main_arg5))

/-! ## Each staged array as a chain of layout operations

Each statement names one array as it stands when the tiled evaluation starts and writes it as the layout operations
that produced it, applied to the four arrays above or directly to an argument. The proof replays the operations that
precede the tiled evaluation, in order, and reads off the one that wrote the array; the row lookup is kept closed. -/

attribute [local irreducible] Host.gather in
/-- Column 0 of the compared ground-truth rows, as the program builds it: the 32768 x 4 array transposed to
    4 x 32768, row 0 cut out, the unit axis dropped, and the 32768 entries laid out as 256 rows of 128 lanes. -/
theorem array_w0 : (V m c main_v15 : S256x128.Idx → EReal)
    = shapeCast S256x128 (shapeCast S32768 (extractStridedSlice S1x32768 ![0, 0]
        (transpose S4x32768 [1, 0] (mbK m c) transposes_S32768x4_S4x32768_1_0) slices_S4x32768_S1x32768_0_0)
        shapeCasts_S1x32768_S32768) shapeCasts_S32768_S256x128 := by
  dsimp only [Gen.V, Gen.V0]
  simp only [Gen.hostOps0, Gen.hostOps0_1, Gen.hostOps0_2, List.flatten_cons, List.flatten_nil, List.append_nil,
    List.cons_append, List.nil_append]
  after_results_simp
  rfl

attribute [local irreducible] Host.gather in
/-- Column 1 of the compared ground-truth rows, as the program builds it: the 32768 x 4 array transposed to
    4 x 32768, row 1 cut out, the unit axis dropped, and the 32768 entries laid out as 256 rows of 128 lanes. -/
theorem array_w1 : (V m c main_v18 : S256x128.Idx → EReal)
    = shapeCast S256x128 (shapeCast S32768 (extractStridedSlice S1x32768 ![1, 0]
        (transpose S4x32768 [1, 0] (mbK m c) transposes_S32768x4_S4x32768_1_0) slices_S4x32768_S1x32768_1_0)
        shapeCasts_S1x32768_S32768) shapeCasts_S32768_S256x128 := by
  dsimp only [Gen.V, Gen.V0]
  simp only [Gen.hostOps0, Gen.hostOps0_1, Gen.hostOps0_2, List.flatten_cons, List.flatten_nil, List.append_nil,
    List.cons_append, List.nil_append]
  after_results_simp
  rfl

attribute [local irreducible] Host.gather in
/-- Column 2 of the compared ground-truth rows, as the program builds it: the 32768 x 4 array transposed to
    4 x 32768, row 2 cut out, the unit axis dropped, and the 32768 entries laid out as 256 rows of 128 lanes. -/
theorem array_w2 : (V m c main_v21 : S256x128.Idx → EReal)
    = shapeCast S256x128 (shapeCast S32768 (extractStridedSlice S1x32768 ![2, 0]
        (transpose S4x32768 [1, 0] (mbK m c) transposes_S32768x4_S4x32768_1_0) slices_S4x32768_S1x32768_2_0)
        shapeCasts_S1x32768_S32768) shapeCasts_S32768_S256x128 := by
  dsimp only [Gen.V, Gen.V0]
  simp only [Gen.hostOps0, Gen.hostOps0_1, Gen.hostOps0_2, List.flatten_cons, List.flatten_nil, List.append_nil,
    List.cons_append, List.nil_append]
  after_results_simp
  rfl

attribute [local irreducible] Host.gather in
/-- Column 3 of the compared ground-truth rows, as the program builds it: the 32768 x 4 array transposed to
    4 x 32768, row 3 cut out, the unit axis dropped, and the 32768 entries laid out as 256 rows of 128 lanes. -/
theorem array_w3 : (V m c main_v24 : S256x128.Idx → EReal)
    = shapeCast S256x128 (shapeCast S32768 (extractStridedSlice S1x32768 ![3, 0]
        (transpose S4x32768 [1, 0] (mbK m c) transposes_S32768x4_S4x32768_1_0) slices_S4x32768_S1x32768_3_0)
        shapeCasts_S1x32768_S32768) shapeCasts_S32768_S256x128 := by
  dsimp only [Gen.V, Gen.V0]
  simp only [Gen.hostOps0, Gen.hostOps0_1, Gen.hostOps0_2, List.flatten_cons, List.flatten_nil, List.append_nil,
    List.cons_append, List.nil_append]
  after_results_simp
  rfl

/-- Column 0 of the predicted boxes, as the program builds it: the 32768 x 4 array transposed to
    4 x 32768, row 0 cut out, the unit axis dropped, and the 32768 entries laid out as 256 rows of 128 lanes. -/
theorem array_w4 : (V m c main_v28 : S256x128.Idx → EReal)
    = shapeCast S256x128 (shapeCast S32768 (extractStridedSlice S1x32768 ![0, 0]
        (transpose S4x32768 [1, 0] (pbK m c) transposes_S32768x4_S4x32768_1_0) slices_S4x32768_S1x32768_0_0)
        shapeCasts_S1x32768_S32768) shapeCasts_S32768_S256x128 := by
  dsimp only [Gen.V, Gen.V0]
  simp only [Gen.hostOps0, Gen.hostOps0_1, Gen.hostOps0_2, List.flatten_cons, List.flatten_nil, List.append_nil,
    List.cons_append, List.nil_append]
  after_results_simp
  rfl

/-- Column 1 of the predicted boxes, as the program builds it: the 32768 x 4 array transposed to
    4 x 32768, row 1 cut out, the unit axis dropped, and the 32768 entries laid out as 256 rows of 128 lanes. -/
theorem array_w5 : (V m c main_v31 : S256x128.Idx → EReal)
    = shapeCast S256x128 (shapeCast S32768 (extractStridedSlice S1x32768 ![1, 0]
        (transpose S4x32768 [1, 0] (pbK m c) transposes_S32768x4_S4x32768_1_0) slices_S4x32768_S1x32768_1_0)
        shapeCasts_S1x32768_S32768) shapeCasts_S32768_S256x128 := by
  dsimp only [Gen.V, Gen.V0]
  simp only [Gen.hostOps0, Gen.hostOps0_1, Gen.hostOps0_2, List.flatten_cons, List.flatten_nil, List.append_nil,
    List.cons_append, List.nil_append]
  after_results_simp
  rfl

/-- Column 2 of the predicted boxes, as the program builds it: the 32768 x 4 array transposed to
    4 x 32768, row 2 cut out, the unit axis dropped, and the 32768 entries laid out as 256 rows of 128 lanes. -/
theorem array_w6 : (V m c main_v34 : S256x128.Idx → EReal)
    = shapeCast S256x128 (shapeCast S32768 (extractStridedSlice S1x32768 ![2, 0]
        (transpose S4x32768 [1, 0] (pbK m c) transposes_S32768x4_S4x32768_1_0) slices_S4x32768_S1x32768_2_0)
        shapeCasts_S1x32768_S32768) shapeCasts_S32768_S256x128 := by
  dsimp only [Gen.V, Gen.V0]
  simp only [Gen.hostOps0, Gen.hostOps0_1, Gen.hostOps0_2, List.flatten_cons, List.flatten_nil, List.append_nil,
    List.cons_append, List.nil_append]
  after_results_simp
  rfl

/-- Column 3 of the predicted boxes, as the program builds it: the 32768 x 4 array transposed to
    4 x 32768, row 3 cut out, the unit axis dropped, and the 32768 entries laid out as 256 rows of 128 lanes. -/
theorem array_w7 : (V m c main_v37 : S256x128.Idx → EReal)
    = shapeCast S256x128 (shapeCast S32768 (extractStridedSlice S1x32768 ![3, 0]
        (transpose S4x32768 [1, 0] (pbK m c) transposes_S32768x4_S4x32768_1_0) slices_S4x32768_S1x32768_3_0)
        shapeCasts_S1x32768_S32768) shapeCasts_S32768_S256x128 := by
  dsimp only [Gen.V, Gen.V0]
  simp only [Gen.hostOps0, Gen.hostOps0_1, Gen.hostOps0_2, List.flatten_cons, List.flatten_nil, List.append_nil,
    List.cons_append, List.nil_append]
  after_results_simp
  rfl

/-- The confidences laid out as 256 rows of 128 lanes. -/
theorem array_w8 : (V m c main_v38 : S256x128.Idx → EReal)
    = shapeCast S256x128 (confK m c) shapeCasts_S32768_S256x128 := by
  dsimp only [Gen.V, Gen.V0]
  simp only [Gen.hostOps0, Gen.hostOps0_1, Gen.hostOps0_2, List.flatten_cons, List.flatten_nil, List.append_nil,
    List.cons_append, List.nil_append]
  after_results_simp
  rfl

/-- The matched overlaps (argument 6) laid out as 256 rows of 128 lanes. -/
theorem array_w9 : (V m c main_v39 : S256x128.Idx → EReal)
    = shapeCast S256x128 (m ((c : Thread nD τ).loc main_arg6)) shapeCasts_S32768_S256x128 := by
  dsimp only [Gen.V, Gen.V0]
  simp only [Gen.hostOps0, Gen.hostOps0_1, Gen.hostOps0_2, List.flatten_cons, List.flatten_nil, List.append_nil,
    List.cons_append, List.nil_append]
  after_results_simp
  rfl

/-- The matched flags, each turned into the number 1 or 0, laid out as 256 rows of 128 lanes. -/
theorem array_w10 : (V m c main_v41 : S256x128.Idx → EReal)
    = shapeCast S256x128 (uitofp (F := Ideal) .f32 (mskK m c)) shapeCasts_S32768_S256x128 := by
  dsimp only [Gen.V, Gen.V0]
  simp only [Gen.hostOps0, Gen.hostOps0_1, Gen.hostOps0_2, List.flatten_cons, List.flatten_nil, List.append_nil,
    List.cons_append, List.nil_append]
  after_results_simp
  rfl

/-- The first probability grid (argument 3) flattened to 10240 rows of 128 lanes. -/
theorem array_w11 : (V m c main_v42 : S10240x128.Idx → EReal)
    = shapeCast S10240x128 (m ((c : Thread nD τ).loc main_arg3)) shapeCasts_S128x128x80_S10240x128 := by
  dsimp only [Gen.V, Gen.V0]
  simp only [Gen.hostOps0, Gen.hostOps0_1, Gen.hostOps0_2, List.flatten_cons, List.flatten_nil, List.append_nil,
    List.cons_append, List.nil_append]
  after_results_simp
  rfl

/-- The second probability grid (argument 4) flattened to 10240 rows of 128 lanes. -/
theorem array_w12 : (V m c main_v43 : S10240x128.Idx → EReal)
    = shapeCast S10240x128 (m ((c : Thread nD τ).loc main_arg4)) shapeCasts_S128x128x80_S10240x128 := by
  dsimp only [Gen.V, Gen.V0]
  simp only [Gen.hostOps0, Gen.hostOps0_1, Gen.hostOps0_2, List.flatten_cons, List.flatten_nil, List.append_nil,
    List.cons_append, List.nil_append]
  after_results_simp
  rfl

/-! ## The thirteen reads -/

/-- Row r, lane l of it is coordinate 0 of the ground-truth row compared with box 128 r + l. -/
theorem read_w0 (r : Fin 256) (l : Fin 128) :
    (V m c main_v15 : S256x128.Idx → EReal) (ix2 r l) = mbK m c (ix2 (boxAt r l) (0 : Fin 4)) :=
  (congrFun (array_w0 m c) (ix2 r l)).trans
    (column_apply (mbK m c) 0 (0 : Fin 4) rfl transposes_S32768x4_S4x32768_1_0 slices_S4x32768_S1x32768_0_0
      shapeCasts_S1x32768_S32768 shapeCasts_S32768_S256x128 r l)

/-- Row r, lane l of it is coordinate 1 of the ground-truth row compared with box 128 r + l. -/
theorem read_w1 (r : Fin 256) (l : Fin 128) :
    (V m c main_v18 : S256x128.Idx → EReal) (ix2 r l) = mbK m c (ix2 (boxAt r l) (1 : Fin 4)) :=
  (congrFun (array_w1 m c) (ix2 r l)).trans
    (column_apply (mbK m c) 1 (1 : Fin 4) rfl transposes_S32768x4_S4x32768_1_0 slices_S4x32768_S1x32768_1_0
      shapeCasts_S1x32768_S32768 shapeCasts_S32768_S256x128 r l)

/-- Row r, lane l of it is coordinate 2 of the ground-truth row compared with box 128 r + l. -/
theorem read_w2 (r : Fin 256) (l : Fin 128) :
    (V m c main_v21 : S256x128.Idx → EReal) (ix2 r l) = mbK m c (ix2 (boxAt r l) (2 : Fin 4)) :=
  (congrFun (array_w2 m c) (ix2 r l)).trans
    (column_apply (mbK m c) 2 (2 : Fin 4) rfl transposes_S32768x4_S4x32768_1_0 slices_S4x32768_S1x32768_2_0
      shapeCasts_S1x32768_S32768 shapeCasts_S32768_S256x128 r l)

/-- Row r, lane l of it is coordinate 3 of the ground-truth row compared with box 128 r + l. -/
theorem read_w3 (r : Fin 256) (l : Fin 128) :
    (V m c main_v24 : S256x128.Idx → EReal) (ix2 r l) = mbK m c (ix2 (boxAt r l) (3 : Fin 4)) :=
  (congrFun (array_w3 m c) (ix2 r l)).trans
    (column_apply (mbK m c) 3 (3 : Fin 4) rfl transposes_S32768x4_S4x32768_1_0 slices_S4x32768_S1x32768_3_0
      shapeCasts_S1x32768_S32768 shapeCasts_S32768_S256x128 r l)

/-- Row r, lane l of it is coordinate 0 of predicted box 128 r + l. -/
theorem read_w4 (r : Fin 256) (l : Fin 128) :
    (V m c main_v28 : S256x128.Idx → EReal) (ix2 r l) = pbK m c (ix2 (boxAt r l) (0 : Fin 4)) :=
  (congrFun (array_w4 m c) (ix2 r l)).trans
    (column_apply (pbK m c) 0 (0 : Fin 4) rfl transposes_S32768x4_S4x32768_1_0 slices_S4x32768_S1x32768_0_0
      shapeCasts_S1x32768_S32768 shapeCasts_S32768_S256x128 r l)

/-- Row r, lane l of it is coordinate 1 of predicted box 128 r + l. -/
theorem read_w5 (r : Fin 256) (l : Fin 128) :
    (V m c main_v31 : S256x128.Idx → EReal) (ix2 r l) = pbK m c (ix2 (boxAt r l) (1 : Fin 4)) :=
  (congrFun (array_w5 m c) (ix2 r l)).trans
    (column_apply (pbK m c) 1 (1 : Fin 4) rfl transposes_S32768x4_S4x32768_1_0 slices_S4x32768_S1x32768_1_0
      shapeCasts_S1x32768_S32768 shapeCasts_S32768_S256x128 r l)

/-- Row r, lane l of it is coordinate 2 of predicted box 128 r + l. -/
theorem read_w6 (r : Fin 256) (l : Fin 128) :
    (V m c main_v34 : S256x128.Idx → EReal) (ix2 r l) = pbK m c (ix2 (boxAt r l) (2 : Fin 4)) :=
  (congrFun (array_w6 m c) (ix2 r l)).trans
    (column_apply (pbK m c) 2 (2 : Fin 4) rfl transposes_S32768x4_S4x32768_1_0 slices_S4x32768_S1x32768_2_0
      shapeCasts_S1x32768_S32768 shapeCasts_S32768_S256x128 r l)

/-- Row r, lane l of it is coordinate 3 of predicted box 128 r + l. -/
theorem read_w7 (r : Fin 256) (l : Fin 128) :
    (V m c main_v37 : S256x128.Idx → EReal) (ix2 r l) = pbK m c (ix2 (boxAt r l) (3 : Fin 4)) :=
  (congrFun (array_w7 m c) (ix2 r l)).trans
    (column_apply (pbK m c) 3 (3 : Fin 4) rfl transposes_S32768x4_S4x32768_1_0 slices_S4x32768_S1x32768_3_0
      shapeCasts_S1x32768_S32768 shapeCasts_S32768_S256x128 r l)

/-- Row r, lane l of the confidences is the confidence of box 128 r + l. -/
theorem read_w8 (r : Fin 256) (l : Fin 128) :
    (V m c main_v38 : S256x128.Idx → EReal) (ix2 r l) = confK m c (ix1 (boxAt r l)) :=
  (congrFun (array_w8 m c) (ix2 r l)).trans (rows_apply (confK m c) shapeCasts_S32768_S256x128 r l)

/-- Row r, lane l of the matched overlaps is the overlap of box 128 r + l. -/
theorem read_w9 (r : Fin 256) (l : Fin 128) :
    (V m c main_v39 : S256x128.Idx → EReal) (ix2 r l) = m ((c : Thread nD τ).loc main_arg6) (ix1 (boxAt r l)) :=
  (congrFun (array_w9 m c) (ix2 r l)).trans (rows_apply _ shapeCasts_S32768_S256x128 r l)

/-- Row r, lane l of the flags is the flag of box 128 r + l as a number: the conversion acts entry by entry. -/
theorem read_w10 (r : Fin 256) (l : Fin 128) :
    (V m c main_v41 : S256x128.Idx → EReal) (ix2 r l) = bitNum (mskK m c (ix1 (boxAt r l))) :=
  (congrFun (array_w10 m c) (ix2 r l)).trans
    ((rows_apply (uitofp (F := Ideal) .f32 (mskK m c)) shapeCasts_S32768_S256x128 r l).trans rfl)

/-- Row R, lane l of the first flattened grid is the cell with row-major position 128 R + l. -/
theorem read_w11 (R : Fin 10240) (l : Fin 128) :
    (V m c main_v42 : S10240x128.Idx → EReal) (ix2 R l) = m ((c : Thread nD τ).loc main_arg3) (gridAt (cellAt R l)) :=
  (congrFun (array_w11 m c) (ix2 R l)).trans (grid_apply _ shapeCasts_S128x128x80_S10240x128 R l)

/-- Row R, lane l of the second flattened grid is the cell with row-major position 128 R + l. -/
theorem read_w12 (R : Fin 10240) (l : Fin 128) :
    (V m c main_v43 : S10240x128.Idx → EReal) (ix2 R l) = m ((c : Thread nD τ).loc main_arg4) (gridAt (cellAt R l)) :=
  (congrFun (array_w12 m c) (ix2 R l)).trans (grid_apply _ shapeCasts_S128x128x80_S10240x128 R l)

end Cert.KernelArrays

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.LibColSum.lean ====
/-
  The sum of a column on the extended reals, general in its length: an additive reduction of an [a, 1] matrix along
  its first axis, from the zero word, is the finite sum of its a entries. (The companion of the row sum: a kernel
  that sums a matrix keeping its dimensions first sums every row, casts the row sums to a column, then sums the
  column.) The library reads a one-axis reduction as the sum over the reduced axis of the source at the result index
  with the reduced coordinate put back in; for a column reduced along its rows that index is (k, 0).
-/
import Idealize.ShloMosaic.PureOps.Ideal.Laws
import Idealize.ShloMosaic.Lib.ValueIdx

noncomputable section

open scoped BigOperators

namespace Cert.LibColSum

open Idealize.ShloMosaic Idealize.ShloMosaic.ValueIdx

/-- An additive reduction of a column [a, 1] along its first axis, from the zero word, is at its one index the sum
    over k < a of the entries (k, 0). -/
theorem colSum_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) (u : Fin 1) :
    multiReduction (F := Ideal) .add [0] ⟨1, ![1]⟩ src 0x00000000#32 h hφ hacc (ix1 u) = ∑ k : Fin a, src (ix2 k (0 : Fin 1)) :=
  (Ideal.multiReduction_add_single src 0x00000000#32 h hφ hacc (ix1 u)).trans
    (Finset.sum_congr rfl fun k _ => congrArg src (funext fun c => Fin.ext (by
      match c with
      | ⟨0, _⟩ => rfl
      | ⟨1, _⟩ => show u.val = 0; omega)))

end Cert.LibColSum

end
-- ==== Proof.KernelPayload.lean ====
/-
  The two steps of the kernel body, read at the accumulator's one index on the extended reals: what the first point
  adds for the boxes, and what every point adds for its tile of the class grid. Each is a sum over rows of a sum over
  lanes of a per-lane quantity: the body reduces along the lanes, casts the vector of row sums to a column, and reduces
  the column. The per-lane box quantity is the blend `f * matched + (1 - f) * unmatched` of the spec's two losses,
  once the test of a square root against itself (never true here: there is no NaN) is removed.
-/
import proofs.«157804_j69140383531511_2_alg».proof.Proof.KernelPieces
import proofs.«157804_j69140383531511_2_alg».proof.Proof.LossSpec
import proofs.«157804_j69140383531511_2_alg».proof.Proof.LossArith
import proofs.«157804_j69140383531511_2_alg».proof.Proof.LibColumn
import proofs.«157804_j69140383531511_2_alg».proof.Proof.LibColSum
import Idealize.ShloMosaic.PureOps.Ideal.Laws
import Idealize.ShloMosaic.Lib.ValueIdx
import Idealize.ShloMosaic.Lib.Pipeline.Value

set_option maxRecDepth 16384

noncomputable section

open scoped BigOperators
open Idealize.ShloMosaic Idealize.ShloMosaic.TcCoe Idealize.ShloMosaic.ValueIdx

namespace Cert.KernelPayload

open Cert.KernelIdeal Cert.KernelIdeal.Gen Cert.KernelPieces Cert.LossSpec

/-- The accumulator's one index. -/
abbrev o : S1x1.Idx := ix2 (0 : Fin 1) (0 : Fin 1)

/-- What a point adds: read at the accumulator's index, the tile step is the accumulator plus the sum, over the 2560
    rows and 128 lanes of the tile, of the squared differences of the two probability blocks. (The body sums each row,
    casts the row sums to a column, and sums the column.) -/
theorem tileAcc_apply (x11 x12 : Vec Ideal S2560x128 .f32) (s : Vec Ideal S1x1 .f32) :
    tileAcc x11 x12 s o = s o + ∑ r : Fin 2560, ∑ l : Fin 128, sqd (x11 (ix2 r l)) (x12 (ix2 r l)) := by
  unfold tileAcc k0_pay2
  dsimp only
  simp only [shapeCast_self]
  show s o + _ = _
  congr 1
  refine (Cert.LibColumn.shapeCast_a_a1_apply _ _ (0 : Fin 1) (0 : Fin 1)).trans ?_
  refine (Cert.LibColSum.colSum_apply _ _ _ _ (0 : Fin 1)).trans ?_
  refine Finset.sum_congr rfl fun r _ => ?_
  refine (Cert.LibColumn.shapeCast_a_a1_apply _ _ r (0 : Fin 1)).trans ?_
  refine (Cert.LibColumn.rowSum_apply _ _ _ _ r).trans ?_
  rfl

/-- A square root read at an index is the square root of the entry. -/
theorem sqrt_apply {s : Shape} {φ : FTy} (x : FVec Ideal s φ) (i : s.Idx) : sqrt x i = Ideal.sqrt (x i) := rfl

/-- The loss of the box in one lane, from the eleven numbers the body reads there, in the body's order. -/
def cellLoss (m0 m1 m2 m3 p0 p1 p2 p3 cf io fl : EReal) : EReal :=
  fl * (Ideal.ofBits .f32 0x40A00000#32 *
          ((sqd m0 p0 + sqd m1 p1) + (sqd (rootNum m2) (rootNum p2) + sqd (rootNum m3) (rootNum p3)))
        + sqd io cf)
    + (Ideal.ofBits .f32 0x3F800000#32 - fl) * (Ideal.ofBits .f32 0x3F000000#32 * (cf * cf))

/-- The first point's box step, read at the accumulator's index: the accumulator plus the sum, over the 256 rows and
    128 lanes of the box layout, of the lane's box loss. -/
theorem boxAcc_apply (x0 x1 x2 x3 x4 x5 x6 x7 x8 x9 x10 : Vec Ideal S256x128 .f32) (s : Vec Ideal S1x1 .f32) :
    boxAcc x0 x1 x2 x3 x4 x5 x6 x7 x8 x9 x10 s o
      = s o + ∑ r : Fin 256, ∑ l : Fin 128,
          cellLoss (x0 (ix2 r l)) (x1 (ix2 r l)) (x2 (ix2 r l)) (x3 (ix2 r l)) (x4 (ix2 r l)) (x5 (ix2 r l))
            (x6 (ix2 r l)) (x7 (ix2 r l)) (x8 (ix2 r l)) (x9 (ix2 r l)) (x10 (ix2 r l)) := by
  unfold boxAcc k0_pay1
  dsimp only
  simp only [shapeCast_self]
  show s o + _ = _
  congr 1
  refine (Cert.LibColumn.shapeCast_a_a1_apply _ _ (0 : Fin 1) (0 : Fin 1)).trans ?_
  refine (Cert.LibColSum.colSum_apply _ _ _ _ (0 : Fin 1)).trans ?_
  refine Finset.sum_congr rfl fun r _ => ?_
  refine (Cert.LibColumn.shapeCast_a_a1_apply _ _ r (0 : Fin 1)).trans ?_
  refine (Cert.LibColumn.rowSum_apply _ _ _ _ r).trans ?_
  refine Finset.sum_congr rfl fun l _ => ?_
  unfold k0_pay4 k0_pay5 k0_pay6 k0_pay7 k0_pay8 k0_pay9 k0_pay10 k0_pay11 k0_pay12 k0_pay13 k0_pay14 k0_pay15 k0_pay16 k0_pay17
  dsimp only
  simp only [shapeCast_self, mulf_apply, addf_apply, subf_apply, select_apply, cmpf_apply, broadcast_apply]
  simp only [k0_pay11, k0_pay15, shapeCast_self, select_apply, cmpf_apply, broadcast_apply, sqrt_apply, Ideal.cmpf_def,
    Ideal.ofBits_def, Cert.LossArith.select_ne_self_one]
  unfold cellLoss sqd rootNum clampInf
  dsimp only

end Cert.KernelPayload

end
-- ==== Proof.KernelValue.lean ====
/-
  The kernel's result as the loss. Every entry the body reads is an entry of an argument array: a block of a window is
  a piece of the array the window stages (the whole array for the eleven box slabs, tile t for the two probability
  slabs), and each staged array is the arguments re-laid by the host operations before the region. So the body's box
  step sums the blended loss of box 128 r + l over rows r and lanes l, and the tile steps sum the squared probability
  differences over the four tiles: the tiled evaluation of the specification, which is the loss.
-/
import proofs.«157804_j69140383531511_2_alg».proof.Proof.KernelResult
import proofs.«157804_j69140383531511_2_alg».proof.Proof.KernelArrays
import proofs.«157804_j69140383531511_2_alg».proof.Proof.LossSpec
import proofs.«157804_j69140383531511_2_alg».proof.Proof.LossArith
import proofs.«157804_j69140383531511_2_alg».proof.Proof.KernelPayload
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx

namespace Cert.KernelValue

open Cert.KernelIdeal Cert.KernelIdeal.Gen Cert.LossSpec Cert.KernelPieces Cert.KernelAcc Cert.KernelPayload Cert.KernelArrays

variable (m : (ℓ : Loc nD τ sig) → Buf (Elt Ideal) ℓ) (ρ : Dev nD → PrngReg)

theorem idx_w0 (t : Fin cfg0.N) : win0_0.index t 0 = 0 ∧ win0_0.index t 1 = 0 := by
  rcases fin_N0 t with rfl | rfl | rfl | rfl <;> decide

/-- Window 0 stages its whole array at every point. -/
theorem blk_w0 (c : Dev nD) (t : Fin cfg0.N) (r : Fin 256) (l : Fin 128) :
    (iblk m c 0 t : Vec Ideal S256x128 .f32) (ix2 r l) = (V m c main_v15 : S256x128.Idx → EReal) (ix2 r l) := by
  have hi := idx_w0 t
  unfold iblk
  rw [View.read_apply]
  show V m c main_v15 _ = V m c main_v15 _
  congr 1
  funext a
  apply Fin.ext
  match a with
  | ⟨0, _⟩ => show win0_0.index t 0 * 256 + 1 * r.val = r.val; rw [hi.1]; omega
  | ⟨1, _⟩ => show win0_0.index t 1 * 128 + 1 * l.val = l.val; rw [hi.2]; omega

theorem idx_w1 (t : Fin cfg0.N) : win0_1.index t 0 = 0 ∧ win0_1.index t 1 = 0 := by
  rcases fin_N0 t with rfl | rfl | rfl | rfl <;> decide

/-- Window 1 stages its whole array at every point. -/
theorem blk_w1 (c : Dev nD) (t : Fin cfg0.N) (r : Fin 256) (l : Fin 128) :
    (iblk m c 1 t : Vec Ideal S256x128 .f32) (ix2 r l) = (V m c main_v18 : S256x128.Idx → EReal) (ix2 r l) := by
  have hi := idx_w1 t
  unfold iblk
  rw [View.read_apply]
  show V m c main_v18 _ = V m c main_v18 _
  congr 1
  funext a
  apply Fin.ext
  match a with
  | ⟨0, _⟩ => show win0_1.index t 0 * 256 + 1 * r.val = r.val; rw [hi.1]; omega
  | ⟨1, _⟩ => show win0_1.index t 1 * 128 + 1 * l.val = l.val; rw [hi.2]; omega

theorem idx_w2 (t : Fin cfg0.N) : win0_2.index t 0 = 0 ∧ win0_2.index t 1 = 0 := by
  rcases fin_N0 t with rfl | rfl | rfl | rfl <;> decide

/-- Window 2 stages its whole array at every point. -/
theorem blk_w2 (c : Dev nD) (t : Fin cfg0.N) (r : Fin 256) (l : Fin 128) :
    (iblk m c 2 t : Vec Ideal S256x128 .f32) (ix2 r l) = (V m c main_v21 : S256x128.Idx → EReal) (ix2 r l) := by
  have hi := idx_w2 t
  unfold iblk
  rw [View.read_apply]
  show V m c main_v21 _ = V m c main_v21 _
  congr 1
  funext a
  apply Fin.ext
  match a with
  | ⟨0, _⟩ => show win0_2.index t 0 * 256 + 1 * r.val = r.val; rw [hi.1]; omega
  | ⟨1, _⟩ => show win0_2.index t 1 * 128 + 1 * l.val = l.val; rw [hi.2]; omega

theorem idx_w3 (t : Fin cfg0.N) : win0_3.index t 0 = 0 ∧ win0_3.index t 1 = 0 := by
  rcases fin_N0 t with rfl | rfl | rfl | rfl <;> decide

/-- Window 3 stages its whole array at every point. -/
theorem blk_w3 (c : Dev nD) (t : Fin cfg0.N) (r : Fin 256) (l : Fin 128) :
    (iblk m c 3 t : Vec Ideal S256x128 .f32) (ix2 r l) = (V m c main_v24 : S256x128.Idx → EReal) (ix2 r l) := by
  have hi := idx_w3 t
  unfold iblk
  rw [View.read_apply]
  show V m c main_v24 _ = V m c main_v24 _
  congr 1
  funext a
  apply Fin.ext
  match a with
  | ⟨0, _⟩ => show win0_3.index t 0 * 256 + 1 * r.val = r.val; rw [hi.1]; omega
  | ⟨1, _⟩ => show win0_3.index t 1 * 128 + 1 * l.val = l.val; rw [hi.2]; omega

theorem idx_w4 (t : Fin cfg0.N) : win0_4.index t 0 = 0 ∧ win0_4.index t 1 = 0 := by
  rcases fin_N0 t with rfl | rfl | rfl | rfl <;> decide

/-- Window 4 stages its whole array at every point. -/
theorem blk_w4 (c : Dev nD) (t : Fin cfg0.N) (r : Fin 256) (l : Fin 128) :
    (iblk m c 4 t : Vec Ideal S256x128 .f32) (ix2 r l) = (V m c main_v28 : S256x128.Idx → EReal) (ix2 r l) := by
  have hi := idx_w4 t
  unfold iblk
  rw [View.read_apply]
  show V m c main_v28 _ = V m c main_v28 _
  congr 1
  funext a
  apply Fin.ext
  match a with
  | ⟨0, _⟩ => show win0_4.index t 0 * 256 + 1 * r.val = r.val; rw [hi.1]; omega
  | ⟨1, _⟩ => show win0_4.index t 1 * 128 + 1 * l.val = l.val; rw [hi.2]; omega

theorem idx_w5 (t : Fin cfg0.N) : win0_5.index t 0 = 0 ∧ win0_5.index t 1 = 0 := by
  rcases fin_N0 t with rfl | rfl | rfl | rfl <;> decide

/-- Window 5 stages its whole array at every point. -/
theorem blk_w5 (c : Dev nD) (t : Fin cfg0.N) (r : Fin 256) (l : Fin 128) :
    (iblk m c 5 t : Vec Ideal S256x128 .f32) (ix2 r l) = (V m c main_v31 : S256x128.Idx → EReal) (ix2 r l) := by
  have hi := idx_w5 t
  unfold iblk
  rw [View.read_apply]
  show V m c main_v31 _ = V m c main_v31 _
  congr 1
  funext a
  apply Fin.ext
  match a with
  | ⟨0, _⟩ => show win0_5.index t 0 * 256 + 1 * r.val = r.val; rw [hi.1]; omega
  | ⟨1, _⟩ => show win0_5.index t 1 * 128 + 1 * l.val = l.val; rw [hi.2]; omega

theorem idx_w6 (t : Fin cfg0.N) : win0_6.index t 0 = 0 ∧ win0_6.index t 1 = 0 := by
  rcases fin_N0 t with rfl | rfl | rfl | rfl <;> decide

/-- Window 6 stages its whole array at every point. -/
theorem blk_w6 (c : Dev nD) (t : Fin cfg0.N) (r : Fin 256) (l : Fin 128) :
    (iblk m c 6 t : Vec Ideal S256x128 .f32) (ix2 r l) = (V m c main_v34 : S256x128.Idx → EReal) (ix2 r l) := by
  have hi := idx_w6 t
  unfold iblk
  rw [View.read_apply]
  show V m c main_v34 _ = V m c main_v34 _
  congr 1
  funext a
  apply Fin.ext
  match a with
  | ⟨0, _⟩ => show win0_6.index t 0 * 256 + 1 * r.val = r.val; rw [hi.1]; omega
  | ⟨1, _⟩ => show win0_6.index t 1 * 128 + 1 * l.val = l.val; rw [hi.2]; omega

theorem idx_w7 (t : Fin cfg0.N) : win0_7.index t 0 = 0 ∧ win0_7.index t 1 = 0 := by
  rcases fin_N0 t with rfl | rfl | rfl | rfl <;> decide

/-- Window 7 stages its whole array at every point. -/
theorem blk_w7 (c : Dev nD) (t : Fin cfg0.N) (r : Fin 256) (l : Fin 128) :
    (iblk m c 7 t : Vec Ideal S256x128 .f32) (ix2 r l) = (V m c main_v37 : S256x128.Idx → EReal) (ix2 r l) := by
  have hi := idx_w7 t
  unfold iblk
  rw [View.read_apply]
  show V m c main_v37 _ = V m c main_v37 _
  congr 1
  funext a
  apply Fin.ext
  match a with
  | ⟨0, _⟩ => show win0_7.index t 0 * 256 + 1 * r.val = r.val; rw [hi.1]; omega
  | ⟨1, _⟩ => show win0_7.index t 1 * 128 + 1 * l.val = l.val; rw [hi.2]; omega

theorem idx_w8 (t : Fin cfg0.N) : win0_8.index t 0 = 0 ∧ win0_8.index t 1 = 0 := by
  rcases fin_N0 t with rfl | rfl | rfl | rfl <;> decide

/-- Window 8 stages its whole array at every point. -/
theorem blk_w8 (c : Dev nD) (t : Fin cfg0.N) (r : Fin 256) (l : Fin 128) :
    (iblk m c 8 t : Vec Ideal S256x128 .f32) (ix2 r l) = (V m c main_v38 : S256x128.Idx → EReal) (ix2 r l) := by
  have hi := idx_w8 t
  unfold iblk
  rw [View.read_apply]
  show V m c main_v38 _ = V m c main_v38 _
  congr 1
  funext a
  apply Fin.ext
  match a with
  | ⟨0, _⟩ => show win0_8.index t 0 * 256 + 1 * r.val = r.val; rw [hi.1]; omega
  | ⟨1, _⟩ => show win0_8.index t 1 * 128 + 1 * l.val = l.val; rw [hi.2]; omega

theorem idx_w9 (t : Fin cfg0.N) : win0_9.index t 0 = 0 ∧ win0_9.index t 1 = 0 := by
  rcases fin_N0 t with rfl | rfl | rfl | rfl <;> decide

/-- Window 9 stages its whole array at every point. -/
theorem blk_w9 (c : Dev nD) (t : Fin cfg0.N) (r : Fin 256) (l : Fin 128) :
    (iblk m c 9 t : Vec Ideal S256x128 .f32) (ix2 r l) = (V m c main_v39 : S256x128.Idx → EReal) (ix2 r l) := by
  have hi := idx_w9 t
  unfold iblk
  rw [View.read_apply]
  show V m c main_v39 _ = V m c main_v39 _
  congr 1
  funext a
  apply Fin.ext
  match a with
  | ⟨0, _⟩ => show win0_9.index t 0 * 256 + 1 * r.val = r.val; rw [hi.1]; omega
  | ⟨1, _⟩ => show win0_9.index t 1 * 128 + 1 * l.val = l.val; rw [hi.2]; omega

theorem idx_w10 (t : Fin cfg0.N) : win0_10.index t 0 = 0 ∧ win0_10.index t 1 = 0 := by
  rcases fin_N0 t with rfl | rfl | rfl | rfl <;> decide

/-- Window 10 stages its whole array at every point. -/
theorem blk_w10 (c : Dev nD) (t : Fin cfg0.N) (r : Fin 256) (l : Fin 128) :
    (iblk m c 10 t : Vec Ideal S256x128 .f32) (ix2 r l) = (V m c main_v41 : S256x128.Idx → EReal) (ix2 r l) := by
  have hi := idx_w10 t
  unfold iblk
  rw [View.read_apply]
  show V m c main_v41 _ = V m c main_v41 _
  congr 1
  funext a
  apply Fin.ext
  match a with
  | ⟨0, _⟩ => show win0_10.index t 0 * 256 + 1 * r.val = r.val; rw [hi.1]; omega
  | ⟨1, _⟩ => show win0_10.index t 1 * 128 + 1 * l.val = l.val; rw [hi.2]; omega

theorem idx_w11 (t : Fin cfg0.N) : win0_11.index t 0 = t.val ∧ win0_11.index t 1 = 0 := by
  rcases fin_N0 t with rfl | rfl | rfl | rfl <;> decide

/-- Window 11's block at point `t` is tile `t` of its array: rows 2560 t … 2560 t + 2559. -/
theorem blk_w11 (c : Dev nD) (t : Fin cfg0.N) (k : Fin 4) (hk : t.val = k.val) (r : Fin 2560) (l : Fin 128) :
    (iblk m c 11 t : Vec Ideal S2560x128 .f32) (ix2 r l) = (V m c main_v42 : S10240x128.Idx → EReal) (ix2 (tileRow k r) l) := by
  have hi := idx_w11 t
  unfold iblk
  rw [View.read_apply]
  show V m c main_v42 _ = V m c main_v42 _
  congr 1
  funext a
  apply Fin.ext
  match a with
  | ⟨0, _⟩ => show win0_11.index t 0 * 2560 + 1 * r.val = k.val * 2560 + r.val; rw [hi.1, hk]; omega
  | ⟨1, _⟩ => show win0_11.index t 1 * 128 + 1 * l.val = l.val; rw [hi.2]; omega

theorem idx_w12 (t : Fin cfg0.N) : win0_12.index t 0 = t.val ∧ win0_12.index t 1 = 0 := by
  rcases fin_N0 t with rfl | rfl | rfl | rfl <;> decide

/-- Window 12's block at point `t` is tile `t` of its array: rows 2560 t … 2560 t + 2559. -/
theorem blk_w12 (c : Dev nD) (t : Fin cfg0.N) (k : Fin 4) (hk : t.val = k.val) (r : Fin 2560) (l : Fin 128) :
    (iblk m c 12 t : Vec Ideal S2560x128 .f32) (ix2 r l) = (V m c main_v43 : S10240x128.Idx → EReal) (ix2 (tileRow k r) l) := by
  have hi := idx_w12 t
  unfold iblk
  rw [View.read_apply]
  show V m c main_v43 _ = V m c main_v43 _
  congr 1
  funext a
  apply Fin.ext
  match a with
  | ⟨0, _⟩ => show win0_12.index t 0 * 2560 + 1 * r.val = k.val * 2560 + r.val; rw [hi.1, hk]; omega
  | ⟨1, _⟩ => show win0_12.index t 1 * 128 + 1 * l.val = l.val; rw [hi.2]; omega

/-- The loss of box `p` written as the blend with the box's flag. -/
def boxBlend (c : Dev nD) (p : Fin 32768) : EReal :=
  blend (mskK m c (ix1 p)) (matchedLoss (mbK m c) (pbK m c) (confK m c) (m ((c : Thread nD τ).loc main_arg6)) p)
    (unmatchedLoss (confK m c) p)

/-- The squared difference of the two probability arrays at a cell of the class grid. -/
def gridSq (c : Dev nD) (i : SGrid.Idx) : EReal :=
  sqd (m ((c : Thread nD τ).loc main_arg3) i) (m ((c : Thread nD τ).loc main_arg4) i)

/-- Lane `l` of row `r` of the eleven box blocks holds the eleven numbers of box `128 r + l`, so the body's per-lane
    quantity there is that box's blended loss. -/
theorem box_cell (c : Dev nD) (t : Fin cfg0.N) (r : Fin 256) (l : Fin 128) :
    cellLoss (iblk m c 0 t (ix2 r l)) (iblk m c 1 t (ix2 r l)) (iblk m c 2 t (ix2 r l)) (iblk m c 3 t (ix2 r l))
        (iblk m c 4 t (ix2 r l)) (iblk m c 5 t (ix2 r l)) (iblk m c 6 t (ix2 r l)) (iblk m c 7 t (ix2 r l))
        (iblk m c 8 t (ix2 r l)) (iblk m c 9 t (ix2 r l)) (iblk m c 10 t (ix2 r l))
      = boxBlend m c (boxAt r l) := by
  rw [blk_w0 m c t r l, blk_w1 m c t r l, blk_w2 m c t r l, blk_w3 m c t r l, blk_w4 m c t r l, blk_w5 m c t r l, blk_w6 m c t r l, blk_w7 m c t r l, blk_w8 m c t r l, blk_w9 m c t r l, blk_w10 m c t r l,
    read_w0 m c r l, read_w1 m c r l, read_w2 m c r l, read_w3 m c r l, read_w4 m c r l, read_w5 m c r l,
    read_w6 m c r l, read_w7 m c r l, read_w8 m c r l, read_w9 m c r l, read_w10 m c r l]
  rfl

/-- Lane `l` of row `r` of the two probability blocks at point `t` holds cell `128 (2560 t + r) + l` of the flattened
    class grids. -/
theorem tile_cell (c : Dev nD) (t : Fin cfg0.N) (k : Fin 4) (hk : t.val = k.val) (r : Fin 2560) (l : Fin 128) :
    sqd (iblk m c 11 t (ix2 r l)) (iblk m c 12 t (ix2 r l)) = gridSq m c (gridAt (cellAt (tileRow k r) l)) := by
  rw [blk_w11 m c t k hk r l, blk_w12 m c t k hk r l, read_w11 m c (tileRow k r) l, read_w12 m c (tileRow k r) l]
  rfl

/-- The running total after the last point, at its one index, is the tiled evaluation of the box blends and the
    squared probability differences. -/
theorem value_tiled (c : Dev nD) : result m c o = tiledTotal (boxBlend m c) (gridSq m c) := by
  show acc m c 3 three_lt o = _
  simp only [acc]
  rw [tileAcc_apply, tileAcc_apply, tileAcc_apply, tileAcc_apply, boxAcc_apply]
  unfold tiledTotal tileSum
  refine congrArg₂ (· + ·) (congrArg₂ (· + ·) (congrArg₂ (· + ·) (congrArg₂ (· + ·) (congrArg₂ (· + ·) rfl ?_) ?_) ?_) ?_) ?_
  · exact Finset.sum_congr rfl fun r _ => Finset.sum_congr rfl fun l _ => box_cell m c _ r l
  · exact Finset.sum_congr rfl fun r _ => Finset.sum_congr rfl fun l _ => tile_cell m c _ 0 rfl r l
  · exact Finset.sum_congr rfl fun r _ => Finset.sum_congr rfl fun l _ => tile_cell m c _ 1 rfl r l
  · exact Finset.sum_congr rfl fun r _ => Finset.sum_congr rfl fun l _ => tile_cell m c _ 2 rfl r l
  · exact Finset.sum_congr rfl fun r _ => Finset.sum_congr rfl fun l _ => tile_cell m c _ 3 rfl r l

/-- THE KERNEL'S VALUE: the scalar result is the loss of the gathered boxes, the predictions, the confidences, the
    matched ious, the matched flags and the two probability grids. The tiled evaluation is the plain total, and the
    blend with a 0/1 flag is the choice. -/
theorem value_eq (c : Dev nD) :
    shapeCast S_ (result m c) shapeCasts_S1x1_S_
      = fun _ => loss (mbK m c) (pbK m c) (confK m c) (m ((c : Thread nD τ).loc main_arg6)) (mskK m c)
          (m ((c : Thread nD τ).loc main_arg3)) (m ((c : Thread nD τ).loc main_arg4)) := by
  funext j
  refine (shapeCast_apply (result m c) shapeCasts_S1x1_S_ j o rfl).trans ?_
  rw [value_tiled, Cert.LossArith.tiledTotal_eq]
  unfold loss
  refine congrArg₂ (· + ·) (Finset.sum_congr rfl fun p _ => ?_) rfl
  exact Cert.LossArith.blend_eq_select _ _ _

/-- THE RUN, READ, on the extended reals. -/
theorem run : θ_run (defs (F := Ideal)) (onTc (τ := τ) (main (F := Ideal))) ⟨m, fun _ => 0, ρ⟩ fun r => ∀ c : Dev nD,
      r.2.mem ((c.tc : Thread nD τ).loc main_v45)
        = (fun _ => loss (mbK m c) (pbK m c) (confK m c) (m ((c : Thread nD τ).loc main_arg6)) (mskK m c)
            (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (value_eq m c), (h c).2⟩) (Cert.KernelResult.run (F := Ideal) m ρ)

end Cert.KernelValue

end
-- ==== Proof.lean ====
/-
  The fused detection loss: a Pallas kernel against its jnp reference, equal on the extended reals.

  Both programs take a table of 1024 ground-truth boxes, 32768 predicted boxes (128 x 128 cells, two per cell) with a
  confidence each, two 128 x 128 x 80 class-probability grids, an assignment of a ground-truth row to each predicted
  box (negative: none) and the matched iou. Both first look up, for every predicted box, the ground-truth row it is
  compared with. The result is one number,

      sum over boxes of ( matched ?  5 ((dcx)^2 + (dcy)^2 + (d r(w))^2 + (d r(h))^2) + (iou - conf)^2  :  conf^2 / 2 )
        +  sum over the class grid of (main - pred)^2 ,

  r the square root made finite (`Cert.LossSpec`).

  The reference computes it as written: per-box arrays, a `where` on the matched test, two total sums.
  The kernel lays every per-box quantity out as a 256 x 128 slab and the class grids as 10240 x 128 slabs, and
  walks a grid of four points carrying a one-word accumulator: at the first point it zeroes the accumulator and
  adds the box sum, computed with the matched test as a 0/1 factor, `f m + (1 - f) u`; at every point it adds the
  sum of the squared differences over that point's 2560-row tile; after the last point it writes the accumulator out.

  The two agree because, on the extended reals, addition is commutative and associative (so the tiled, row-by-row,
  left-to-right total is the plain total), `1 x = x`, `0 x = 0`, `x + 0 = x`, `1 - 1 = 0`, `1 - 0 = 1` (so the
  blend is the choice), and a number is never different from itself (so the replacement of NaN by zero never acts, in
  either program). None of these needs the inputs to be finite: the precondition is not used.

  The modules: `LossSpec` (the quantity, and its tiled arrangement), `LossArith` (the laws above), `RefRun` and
  `RefValue` (the reference's run, and its result as the quantity), `KernelArrays` (the slabs the kernel stages,
  entry by entry, in terms of the arguments), `KernelPieces` (what one run of the body leaves in the accumulator and
  the output), `KernelPayload` (the body's two steps as sums), `KernelAcc` (the running total, point by point),
  `KernelResult` (the output array and the scalar result buffer), `KernelValue` (the result as the quantity), and two
  general lemma files, `LibColumn` (a vector as a column; the sum of a row) and `LibColSum` (the sum of a column).
-/
import proofs.«157804_j69140383531511_2_alg».proof.Defs
import proofs.«157804_j69140383531511_2_alg».proof.Proof.Gen.Kernel
import proofs.«157804_j69140383531511_2_alg».proof.Proof.Gen.Kernel.Frame
import proofs.«157804_j69140383531511_2_alg».proof.Proof.Gen.KernelIdeal
import proofs.«157804_j69140383531511_2_alg».proof.Proof.Gen.KernelIdeal.Frame
import proofs.«157804_j69140383531511_2_alg».proof.Proof.Gen.ReferenceIdeal
import proofs.«157804_j69140383531511_2_alg».proof.Proof.Gen.Pre_finite_inputs
import proofs.«157804_j69140383531511_2_alg».proof.Proof.RefValue
import proofs.«157804_j69140383531511_2_alg».proof.Proof.KernelValue
import Idealize.ShloMosaic.Adequacy
import Idealize.ShloMosaic.Init

noncomputable section

namespace Cert.Proof

open Idealize.ShloMosaic Idealize.SL.Sem

/-- The kernel as printed terminates, faults nowhere and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefValue.run m ρ)

/-- The idealization rewrote nothing. -/
theorem preserves : Cert.preserves_Kernel_KernelIdeal := trivial

/-- On the extended reals both programs end with the loss of the same arrays: the kernel's result buffer holds it as a
    function of the kernel's memory, the reference's as the same function of its own, and the two memories agree on the
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelValue.run m ρ, ?_⟩
  refine (θ_run Cert.ReferenceIdeal.defs _ _).mono (fun _ h c => ⟨(h c).1.trans ?_, (h c).2⟩) (Cert.RefValue.run m' ρ')
  rw [(hagree c).1, (hagree c).2.1, (hagree c).2.2.1, (hagree c).2.2.2.1, (hagree c).2.2.2.2.1, (hagree c).2.2.2.2.2.1,
    (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
